-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) (main_arg2 : FVec F S8x4096x64 .f32) (main_arg3 : IVec S8x4096x4096 1) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  main_v13
-- ==== Kernel.lean ====
abbrev S8x4096x64 : Shape := ⟨3, ![8, 4096, 64]⟩
abbrev S8x4096x4096 : Shape := ⟨3, ![8, 4096, 4096]⟩
abbrev S1x1024x64 : Shape := ⟨3, ![1, 1024, 64]⟩
abbrev S1x4096x64 : Shape := ⟨3, ![1, 4096, 64]⟩
abbrev S1x1024x1024 : Shape := ⟨3, ![1, 1024, 1024]⟩
abbrev S1024x1 : Shape := ⟨2, ![1024, 1]⟩
abbrev S1024x64 : Shape := ⟨2, ![1024, 64]⟩
abbrev S1024x1024 : Shape := ⟨2, ![1024, 1024]⟩
abbrev S1024 : Shape := ⟨1, ![1024]⟩

abbrev nBuf : Space → Nat
  | .hbm => 6
  | .vmem => 13
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .i1⟩
  | .hbm, ⟨4, _⟩ => ⟨S8x4096x4096, .i32⟩
  | .hbm, ⟨5, _⟩ => ⟨S8x4096x64, .f32⟩
  | .local _ .vmem, ⟨0, _⟩ => ⟨S1x1024x64, .f32⟩
  | .local _ .vmem, ⟨1, _⟩ => ⟨S1x1024x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1024x64, .f32⟩
  | .local _ .vmem, ⟨9, _⟩ => ⟨S1x1024x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v3 : BitVec 32 := Scalar.muli arg2 c1024_i32
  v3
def k0_off1 (i : grid0.Coords) : Fin 3 → Nat :=
  let c0 : Index := 0#32
  let arg2 : BitVec 32 := BitVec.ofNat 32 (i 2).val
  let c1024_i32 : BitVec 32 := 1024#32
  let v3 : BitVec 32 := Scalar.muli arg2 c1024_i32
  let v4 : BitVec 32 := v3
  let v5 : Index := Scalar.indexCast v4
  let c0_1 : Index := 0#32
  ![0, v5.toNat, 0]
def k0_cond2 (i : grid0.Coords) : BitVec 1 :=
  let arg2 : BitVec 32 := BitVec.ofNat 32 (i 2).val
  let c3_i32 : BitVec 32 := 3#32
  let v53 : BitVec 1 := Scalar.cmpi .eq arg2 c3_i32
  let v54 : BitVec 32 := Scalar.extui v53
  let c0_i32_28 : BitVec 32 := 0#32
  let v55 : BitVec 1 := Scalar.cmpi .ne v54 c0_i32_28
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  natLt_1_32 : 1 < 32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S1x1024x64 : 0 < S1x1024x64.numel
  shapeCasts_S1x1024x64_S1024x64 : S1x1024x64.ShapeCasts S1024x64
  bitsLt_bf16_f32 : FTy.bits .bf16 < FTy.bits .f32
  inb_S1x1024x64_S1x1024x64_0_0_0 : ∀ a, (![0, 0, 0] : Fin 3 → Nat) a + S1x1024x64.size a ≤ S1x1024x64.size a
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1024x64 : S1024x64.ShapeCasts S1x1024x64
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x4096x64.size a
  hwx0_0 : ∀ i : grid0.Coords, EltTy.bits .f32 = 32 ∨ (Rect.block (s := S8x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S8x4096x64.size a
  hwx0_1 : ∀ i : grid0.Coords, EltTy.bits .f32 = 32 ∨ (Rect.block (s := S8x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S8x4096x64.size a
  hwx0_2 : ∀ i : grid0.Coords, EltTy.bits .f32 = 32 ∨ (Rect.block (s := S8x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x4096.size a
  hwx0_3 : ∀ i : grid0.Coords, EltTy.bits .i32 = 32 ∨ (Rect.block (s := S8x4096x4096) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S8x4096x64.size a
  hwx0_4 : ∀ i : grid0.Coords, EltTy.bits .f32 = 32 ∨ (Rect.block (s := S8x4096x64) S1x1024x64.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .i1⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Spec.lean ====
/-
  Masked scaled dot-product attention, as one function of the four argument arrays over the reals.

  For a batch `n`, a query row `r` and a key row `s` the score is the dot product of the query and key rows
  over the 64 features divided by 8 where the mask bit is set, and the fill value (the float word for -1e9)
  where it is not. The output at (n, r, e) is the softmax-weighted average over the 4096 key rows of column `e`
  of the values: (sum_s exp(score s) * V[n, s, e]) / (sum_s exp(score s)). No shift by a running or a global
  maximum appears here: a common shift multiplies numerator and denominator by the same positive factor.
-/
import Idealize.ShloMosaic.PureOps.Ideal
import Idealize.ShloMosaic.PureOps.Ideal.Laws
import Idealize.ShloMosaic.Lib.ValueIdx

noncomputable section

namespace Attention

open Idealize.ShloMosaic Idealize.ShloMosaic.ValueIdx

/-- Queries, keys and values: 8 batches of 4096 rows of 64 features. -/
abbrev SQ : Shape := ⟨3, ![8, 4096, 64]⟩
/-- The mask: 8 batches of 4096 query rows by 4096 key rows. -/
abbrev SM : Shape := ⟨3, ![8, 4096, 4096]⟩

/-- Every entry is a real number. -/
def Finite {s : Shape} (X : s.Idx → EReal) : Prop := ∀ i, ∃ r : ℝ, X i = (r : EReal)

/-- The value a masked-out score is filled with. -/
def fill : EReal := Ideal.ofBits .f32 0xCE6E6B28#32

/-- The fill value is the real number -10^9. -/
theorem fill_eq : fill = ((-1000000000 : ℝ) : EReal) := by
  unfold fill
  simp [Ideal.ofBits, Ideal.ieee]
  rw [← EReal.coe_pow, ← EReal.coe_mul]
  norm_num

/-- The float word of 0.125 is the real 1/8. -/
theorem eighth_eq : Ideal.ofBits .f32 0x3E000000#32 = ((1 / 8 : ℝ) : EReal) := by
  simp [Ideal.ofBits, Ideal.ieee]
  rw [← EReal.coe_mul]
  norm_num

/-- The float word of 64.0 is the real 64. -/
theorem sixtyfour_eq : Ideal.ofBits .f32 0x42800000#32 = ((64 : ℝ) : EReal) := by
  simp [Ideal.ofBits, Ideal.ieee]
  rw [← EReal.coe_mul]
  norm_num

/-- The float word of 1.0 is the real 1. -/
theorem one_eq : Ideal.ofBits .f32 0x3F800000#32 = ((1 : ℝ) : EReal) := by
  simp [Ideal.ofBits, Ideal.ieee]
  rw [← EReal.coe_mul, ← EReal.coe_one]
  norm_num

/-- The float word of -infinity is the bottom element. -/
theorem neg_inf_eq : Ideal.ofBits .f32 0xFF800000#32 = (⊥ : EReal) := by
  simp [Ideal.ofBits, Ideal.ieee]

/-- The score of key row `s` for query row `r` of batch `n`. -/
def score (Q K : SQ.Idx → EReal) (Mk : SM.Idx → BitVec 1) (n : Fin 8) (r s : Fin 4096) : ℝ :=
  if Mk (ix3 n r s) = 1#1 then (∑ d : Fin 64, (Q (ix3 n r d)).toReal * (K (ix3 n s d)).toReal) / 8
  else fill.toReal

/-- The attention output: the softmax-weighted average of the value rows. -/
def out (Q K V : SQ.Idx → EReal) (Mk : SM.Idx → BitVec 1) (i : SQ.Idx) : EReal :=
  (((∑ s : Fin 4096, Real.exp (score Q K Mk (i 0) (i 1) s) * (V (ix3 (i 0) s (i 2))).toReal)
      / (∑ s : Fin 4096, Real.exp (score Q K Mk (i 0) (i 1) s)) : ℝ) : EReal)

end Attention

end
-- ==== Proof.OnlineSoftmax.lean ====
/-
  The algebra of a softmax-weighted average over the real numbers, and of its accumulation block by block.

  For scores `x s` and values `v s` over a finite index set, the weighted average
      (sum_s exp(x s) * v s) / (sum_s exp(x s))
  is unchanged when every score is shifted by a common real `M`: numerator and denominator both pick up the
  positive factor exp(-M). The same average is the sum of the normalised weights exp(x s - M) / L times the values,
  with L the sum of the shifted exponentials. Block by block: if a running pair (l, a) holds the sums of
  exp(x s - M) and exp(x s - M) * v s over the scores seen so far, then after a further block, with the new shift M',
      exp(M - M') * l + (sum over the block of exp(x s - M'))
  is the sum of exp(x s - M') over everything seen, and likewise for the weighted sum.
-/
import Idealize.ShloMosaic.PureOps.Ideal

noncomputable section

namespace OnlineSoftmax

open Finset

variable {ι : Type*} [Fintype ι]

/-- A sum of exponentials over a nonempty index set is positive. -/
theorem sum_exp_pos [Nonempty ι] (x : ι → ℝ) : 0 < ∑ s, Real.exp (x s) :=
  Finset.sum_pos (fun s _ => Real.exp_pos _) Finset.univ_nonempty

/-- Shifting every score by `M` scales the weighted sum by exp(-M). -/
theorem sum_shift (x v : ι → ℝ) (M : ℝ) :
    ∑ s, Real.exp (x s - M) * v s = Real.exp (-M) * ∑ s, Real.exp (x s) * v s := by
  rw [Finset.mul_sum]
  refine Finset.sum_congr rfl fun s _ => ?_
  rw [sub_eq_add_neg, Real.exp_add]; ring

/-- ... and the plain sum of exponentials likewise. -/
theorem sum_shift_one (x : ι → ℝ) (M : ℝ) :
    ∑ s, Real.exp (x s - M) = Real.exp (-M) * ∑ s, Real.exp (x s) := by
  rw [Finset.mul_sum]
  refine Finset.sum_congr rfl fun s _ => ?_
  rw [sub_eq_add_neg, Real.exp_add]; ring

/-- The weighted average does not depend on the common shift. -/
theorem quot_shift (x v : ι → ℝ) (M : ℝ) :
    (∑ s, Real.exp (x s - M) * v s) / (∑ s, Real.exp (x s - M))
      = (∑ s, Real.exp (x s) * v s) / (∑ s, Real.exp (x s)) := by
  rw [sum_shift, sum_shift_one, mul_div_mul_left _ _ (Real.exp_pos _).ne']

/-- The sum of the normalised weights times the values is the weighted average. -/
theorem weights_quot (x v : ι → ℝ) (M : ℝ) :
    ∑ s, Real.exp (x s - M) / (∑ t, Real.exp (x t - M)) * v s
      = (∑ s, Real.exp (x s) * v s) / (∑ s, Real.exp (x s)) := by
  rw [← quot_shift x v M, Finset.sum_div]
  refine Finset.sum_congr rfl fun s _ => ?_
  ring

/-- One step of the running sums: rescaling what was accumulated under the old shift `M` to the new shift `M'`. -/
theorem rescale (x v : ι → ℝ) (M M' : ℝ) :
    Real.exp (M - M') * ∑ s, Real.exp (x s - M) * v s = ∑ s, Real.exp (x s - M') * v s := by
  rw [Finset.mul_sum]
  refine Finset.sum_congr rfl fun s _ => ?_
  rw [← mul_assoc, ← Real.exp_add]
  congr 2; ring

/-- The same for the plain sum of exponentials. -/
theorem rescale_one (x : ι → ℝ) (M M' : ℝ) :
    Real.exp (M - M') * ∑ s, Real.exp (x s - M) = ∑ s, Real.exp (x s - M') := by
  rw [Finset.mul_sum]
  refine Finset.sum_congr rfl fun s _ => ?_
  rw [← Real.exp_add]
  congr 1; ring

/-- The rescaling step over any finite set of indices. -/
theorem rescale_on {κ : Type*} (S : Finset κ) (x v : κ → ℝ) (M M' : ℝ) :
    Real.exp (M - M') * ∑ s ∈ S, Real.exp (x s - M) * v s = ∑ s ∈ S, Real.exp (x s - M') * v s := by
  rw [Finset.mul_sum]
  refine Finset.sum_congr rfl fun s _ => ?_
  rw [← mul_assoc, ← Real.exp_add]
  congr 2; ring

/-- The same for the plain sum of exponentials. -/
theorem rescale_one_on {κ : Type*} (S : Finset κ) (x : κ → ℝ) (M M' : ℝ) :
    Real.exp (M - M') * ∑ s ∈ S, Real.exp (x s - M) = ∑ s ∈ S, Real.exp (x s - M') := by
  rw [Finset.mul_sum]
  refine Finset.sum_congr rfl fun s _ => ?_
  rw [← Real.exp_add]
  congr 1; ring

end OnlineSoftmax

end
-- ==== Proof.RefValue.lean ====
/-
  The reference program computes the softmax-weighted average of the value rows.

  Fix a batch n and a query row r. The program forms the scores x s (the scaled dot product of query row r with
  key row s where the mask bit is set, the fill value where it is not), takes their maximum M over the 4096 key
  rows, exponentiates the shifted scores x s - M, sums them to L, divides each by L, and contracts the resulting
  weights with column e of the values. All scores are real numbers when the inputs are, so M is a real number, every
  exponential is a positive real, L is a positive real, and the result is the real number
      sum_s (exp (x s - M) / L) * v s.
  A common shift of all scores multiplies numerator and denominator of the weighted average by the same positive
  factor, so this is (sum_s exp (x s) * v s) / (sum_s exp (x s)), the stated value. Nothing about M is needed
  beyond its being a real number.
-/
import proofs.«163673_j90263032693333_2_alg».proof.Proof.Gen.ReferenceIdeal.Read
import proofs.«163673_j90263032693333_2_alg».proof.Proof.Spec
import proofs.«163673_j90263032693333_2_alg».proof.Proof.OnlineSoftmax

noncomputable section

namespace Attention.Ref

open Idealize.ShloMosaic Idealize.ShloMosaic.ValueIdx
open Cert.ReferenceIdeal Cert.ReferenceIdeal.Gen Cert.ReferenceIdeal.Read

/-! ## Two general facts about extended reals -/

/-- The inclusion of the reals in the extended reals carries a finite sum to the sum of the inclusions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum, started from the bottom element, of a nonempty finite family of real numbers is a real number:
    it lies below the top element because every member does, and above the bottom element because some member does. -/
theorem fold_max_real {ι : Type*} (s : Finset ι) (hs : s.Nonempty) (g : ι → EReal)
    (hg : ∀ k, ∃ t : ℝ, g k = (t : EReal)) : ∃ M : ℝ, s.fold max ⊥ g = (M : EReal) := by
  have h1 : s.fold max ⊥ g < ⊤ := by
    rw [Finset.fold_max_lt]
    refine ⟨bot_lt_top, fun k _ => ?_⟩
    obtain ⟨t, ht⟩ := hg k
    rw [ht]; exact EReal.coe_lt_top t
  have h2 : ⊥ < s.fold max ⊥ g := by
    rw [Finset.lt_fold_max]
    obtain ⟨k, hk⟩ := hs
    obtain ⟨t, ht⟩ := hg k
    exact Or.inr ⟨k, hk, by rw [ht]; exact EReal.bot_lt_coe t⟩
  exact ⟨(s.fold max ⊥ g).toReal, (EReal.coe_toReal h1.ne h2.ne').symm⟩

/-! ## The index maps of the program at coordinates -/

theorem lidx2 (n : Fin 8) (r s : Fin 4096) (d : Fin 64) : lidx_main_v2 (ix3 n r s) d = ix3 n r d :=
  funext fun a => Fin.ext (by match a with | ⟨0, _⟩ => rfl | ⟨1, _⟩ => rfl | ⟨2, _⟩ => rfl)

theorem ridx2 (n : Fin 8) (r s : Fin 4096) (d : Fin 64) : ridx_main_v2 (ix3 n r s) d = ix3 n s d :=
  funext fun a => Fin.ext (by match a with | ⟨0, _⟩ => rfl | ⟨1, _⟩ => rfl | ⟨2, _⟩ => rfl)

theorem idx9_10 (n : Fin 8) (r s : Fin 4096) : idx_main_v9 (idx_main_v10 (ix3 n r s)) = ix2 n r :=
  funext fun a => Fin.ext (by match a with | ⟨0, _⟩ => rfl | ⟨1, _⟩ => rfl)

theorem idx13 (n : Fin 8) (r s : Fin 4096) : idx_main_v13 (ix2 n r) s = ix3 n r s :=
  funext fun a => Fin.ext (by match a with | ⟨0, _⟩ => rfl | ⟨1, _⟩ => rfl | ⟨2, _⟩ => rfl)

theorem idx14_15 (n : Fin 8) (r s : Fin 4096) : idx_main_v14 (idx_main_v15 (ix3 n r s)) = ix2 n r :=
  funext fun a => Fin.ext (by match a with | ⟨0, _⟩ => rfl | ⟨1, _⟩ => rfl)

theorem lidx17 (n : Fin 8) (r s : Fin 4096) (e : Fin 64) : lidx_main_v17 (ix3 n r e) s = ix3 n r s :=
  funext fun a => Fin.ext (by match a with | ⟨0, _⟩ => rfl | ⟨1, _⟩ => rfl | ⟨2, _⟩ => rfl)

theorem ridx17 (n : Fin 8) (r s : Fin 4096) (e : Fin 64) : ridx_main_v17 (ix3 n r e) s = ix3 n s e :=
  funext fun a => Fin.ext (by match a with | ⟨0, _⟩ => rfl | ⟨1, _⟩ => rfl | ⟨2, _⟩ => rfl)

/-! ## The stages of the program at coordinates, for real inputs -/

/-- The scale 1 / sqrt 64 is the real number 1/8. -/
theorem scale_eq (i : S8x4096x4096.Idx) : val_main_v3 (F := Ideal) i = ((1 / 8 : ℝ) : EReal) := by
  rw [val_main_v3_apply, val_main_v1_apply, val_main_cst_0_apply, val_main_v0_apply, val_main_cst_apply]
  simp only [Ideal.hostDivf_def, Ideal.hostUnary_sqrt_def, Ideal.ofBits_def]
  have h8 : Real.sqrt 64 = 8 := by
    rw [show (64 : ℝ) = 8 ^ 2 by norm_num]; exact Real.sqrt_sq (by norm_num)
  rw [sixtyfour_eq, one_eq, Ideal.sqrt_coe, if_neg (by norm_num), h8, Ideal.div_coe (by norm_num), ← EReal.coe_mul,
    one_mul]

variable (q k v : SQ.Idx → ℝ) (Mk : SM.Idx → BitVec 1)

/-- The masked, scaled score at (n, r, s) is the real number the specification names. -/
theorem score_eq (n : Fin 8) (r s : Fin 4096) :
    val_main_v5 (F := Ideal) (fun i => (q i : EReal)) (fun i => (k i : EReal)) Mk (ix3 n r s)
      = ((score (fun i => (q i : EReal)) (fun i => (k i : EReal)) Mk n r s : ℝ) : EReal) := by
  rw [val_main_v5_apply, val_main_v4_apply, val_main_v2_apply, val_main_call0_v0_apply, val_main_cst_1_apply, scale_eq]
  simp only [lidx2, ridx2, Ideal.mulf_def, Ideal.ofBits_def]
  unfold score
  by_cases hm : Mk (ix3 n r s) = 1#1
  · rw [if_pos hm, hm, select_one]
    have hsum : (∑ d : Fin 64, (q (ix3 n r d) : EReal) * (k (ix3 n s d) : EReal))
        = ((∑ d : Fin 64, q (ix3 n r d) * k (ix3 n s d) : ℝ) : EReal) := by
      rw [coe_sum]; exact Finset.sum_congr rfl fun d _ => (EReal.coe_mul _ _).symm
    rw [hsum, ← EReal.coe_mul, mul_one_div]
    simp only [EReal.toReal_coe]
  · rw [if_neg hm, eq_zero_of_ne_one hm, select_zero]
    show fill = _
    rw [fill_eq, EReal.toReal_coe]

/-- Every score is a real number. -/
theorem score_real (i : S8x4096x4096.Idx) :
    ∃ t : ℝ, val_main_v5 (F := Ideal) (fun i => (q i : EReal)) (fun i => (k i : EReal)) Mk i = (t : EReal) := by
  obtain ⟨n, r, s, rfl⟩ : ∃ (n : Fin 8) (r s : Fin 4096), i = ix3 n r s := ⟨i 0, i 1, i 2, eq_ix3 i⟩
  exact ⟨_, score_eq q k Mk n r s⟩

/-- The maximum over the key rows, started from -infinity, of an array of real numbers is a real number at
    every (batch, query row). -/
theorem reduce_max_real (x : FVec Ideal S8x4096x4096 .f32) (hx : ∀ i, ∃ t : ℝ, x i = (t : EReal)) (j : S8x4096.Idx) :
    ∃ M : ℝ, Host.reduce FloatOps.maximumf x (val_main_cst_2 (F := Ideal)) reducesTo_S8x4096x4096_S8x4096_d2 h_S_ j
      = (M : EReal) := by
  rw [Host.reduce_eq_fold_single FloatOps.maximumf x _ reducesTo_S8x4096x4096_S8x4096_d2 (by decide) h_S_,
    val_main_cst_2_apply]
  simp only [Ideal.ofBits_def]
  rw [neg_inf_eq]
  exact fold_max_real _ ⟨⟨0, by decide⟩, Finset.mem_univ _⟩ _ (fun k => hx _)

/-- The row maximum at (n, r) is a real number. -/
theorem rowmax_real (n : Fin 8) (r : Fin 4096) :
    ∃ M : ℝ, val_main_v8 (F := Ideal) (fun i => (q i : EReal)) (fun i => (k i : EReal)) Mk (ix2 n r) = (M : EReal) := by
  rw [val_main_v8_apply, val_main_v7_apply, val_main_cst_3_apply]
  simp only [Ideal.maximumf_def, Ideal.ofBits_def]
  rw [neg_inf_eq, max_bot_left]
  unfold val_main_v6
  exact reduce_max_real _ (score_real q k Mk) _

/-- The shifted exponential at (n, r, s): exp of the score minus the row maximum, both real. -/
theorem exp_eq (n : Fin 8) (r s : Fin 4096) (M : ℝ)
    (hM : val_main_v8 (F := Ideal) (fun i => (q i : EReal)) (fun i => (k i : EReal)) Mk (ix2 n r) = (M : EReal)) :
    val_main_v12 (F := Ideal) (fun i => (q i : EReal)) (fun i => (k i : EReal)) Mk (ix3 n r s)
      = ((Real.exp (score (fun i => (q i : EReal)) (fun i => (k i : EReal)) Mk n r s - M) : ℝ) : EReal) := by
  rw [val_main_v12_apply, val_main_v11_apply, val_main_v10_apply, val_main_v9_apply, score_eq, idx9_10, hM]
  simp only [Ideal.hostUnary_exp_def, Ideal.subf_def]
  rw [← EReal.coe_sub, Ideal.exp_coe]

/-- The row sum at (n, r): zero plus the 4096 shifted exponentials, a real number. -/
theorem rowsum_eq (n : Fin 8) (r : Fin 4096) (M : ℝ)
    (hM : val_main_v8 (F := Ideal) (fun i => (q i : EReal)) (fun i => (k i : EReal)) Mk (ix2 n r) = (M : EReal)) :
    val_main_v13 (F := Ideal) (fun i => (q i : EReal)) (fun i => (k i : EReal)) Mk (ix2 n r)
      = ((∑ s : Fin 4096, Real.exp (score (fun i => (q i : EReal)) (fun i => (k i : EReal)) Mk n r s - M) : ℝ) : EReal) := by
  rw [val_main_v13_apply, val_main_cst_4_apply]
  simp only [Ideal.ofBits_def]
  rw [Ideal.ofBits_zero_f32, zero_add, coe_sum]
  refine Finset.sum_congr rfl fun s _ => ?_
  rw [idx13, exp_eq q k Mk n r s M hM]

/-- The normalised weight at (n, r, s): the shifted exponential over the row sum, a real quotient because the row
    sum is a positive real. -/
theorem weight_eq (n : Fin 8) (r s : Fin 4096) (M : ℝ)
    (hM : val_main_v8 (F := Ideal) (fun i => (q i : EReal)) (fun i => (k i : EReal)) Mk (ix2 n r) = (M : EReal)) :
    val_main_v16 (F := Ideal) (fun i => (q i : EReal)) (fun i => (k i : EReal)) Mk (ix3 n r s)
      = ((Real.exp (score (fun i => (q i : EReal)) (fun i => (k i : EReal)) Mk n r s - M)
          / ∑ t : Fin 4096, Real.exp (score (fun i => (q i : EReal)) (fun i => (k i : EReal)) Mk n r t - M) : ℝ) : EReal) := by
  rw [val_main_v16_apply, val_main_v15_apply, val_main_v14_apply, idx14_15, exp_eq q k Mk n r s M hM,
    rowsum_eq q k Mk n r M hM]
  simp only [Ideal.hostDivf_def]
  rw [Ideal.div_coe (OnlineSoftmax.sum_exp_pos _).ne', ← EReal.coe_mul, mul_one_div]

/-- The reference's result at (n, r, e) for real inputs: the weights contracted with column e of the values,
    which is the weighted average of the specification by the shift invariance of the softmax. -/
theorem ref_real (n : Fin 8) (r : Fin 4096) (e : Fin 64) :
    val_main_v17 (F := Ideal) (fun i => (q i : EReal)) (fun i => (k i : EReal)) (fun i => (v i : EReal)) Mk (ix3 n r e)
      = (((∑ s : Fin 4096, Real.exp (score (fun i => (q i : EReal)) (fun i => (k i : EReal)) Mk n r s) * v (ix3 n s e))
          / (∑ s : Fin 4096, Real.exp (score (fun i => (q i : EReal)) (fun i => (k i : EReal)) Mk n r s)) : ℝ) : EReal) := by
  obtain ⟨M, hM⟩ := rowmax_real q k Mk n r
  rw [val_main_v17_apply, ← OnlineSoftmax.weights_quot _ _ M, coe_sum]
  refine Finset.sum_congr rfl fun s _ => ?_
  rw [lidx17, ridx17, weight_eq q k Mk n r s M hM, ← EReal.coe_mul]

/-- The reference program's result is the attention output of the specification, when every float input is a
    real number. -/
theorem ref_eq (Q K V : Attention.SQ.Idx → EReal) (Mk : Attention.SM.Idx → BitVec 1) (hQ : Attention.Finite Q)
    (hK : Attention.Finite K) (hV : Attention.Finite V) :
    Cert.ReferenceIdeal.Read.val_main_v17 (F := Ideal) Q K V Mk = Attention.out Q K V Mk := by
  obtain ⟨q, rfl⟩ : ∃ q : SQ.Idx → ℝ, Q = fun i => (q i : EReal) := by
    choose q hq using hQ; exact ⟨q, funext hq⟩
  obtain ⟨k, rfl⟩ : ∃ k : SQ.Idx → ℝ, K = fun i => (k i : EReal) := by
    choose k hk using hK; exact ⟨k, funext hk⟩
  obtain ⟨v, rfl⟩ : ∃ v : SQ.Idx → ℝ, V = fun i => (v i : EReal) := by
    choose v hv using hV; exact ⟨v, funext hv⟩
  funext i
  obtain ⟨n, r, e, rfl⟩ : ∃ (n : Fin 8) (r : Fin 4096) (e : Fin 64), i = ix3 n r e := ⟨i 0, i 1, i 2, eq_ix3 i⟩
  rw [ref_real q k v Mk n r e]
  unfold out
  simp only [EReal.toReal_coe]

end Attention.Ref

end
-- ==== Proof.FiniteInputs.lean ====
/-
  From the printed precondition to "every entry of the three float arguments is a real number".

  The precondition computes, for each of the three float arrays, the conjunction over all entries of the test
  |x| < +infinity, and then the conjunction of the three results. On the extended reals |x| is max x (-x), which is
  +infinity at both infinities; so the test holds at an entry exactly when the entry is a real number. A conjunction
  of one-bit words that equals 1 had the value 1 at every word, which gives the test at each entry of each array.
-/
import proofs.«163673_j90263032693333_2_alg».proof.Defs
import proofs.«163673_j90263032693333_2_alg».proof.Proof.Gen.Pre_finite_inputs
import proofs.«163673_j90263032693333_2_alg».proof.Proof.Spec
import Idealize.ShloMosaic.Lib.ReduceAll

noncomputable section

namespace Attention.Pre

open Idealize.ShloMosaic Idealize.ShloMosaic.ValueIdx

/-- The scalar shape has exactly one index. -/
instance : Subsingleton Cert.Pre_finite_inputs.S_.Idx := ⟨fun a b => funext fun d => d.elim0⟩

/-- The float word of +infinity is the top element. -/
theorem pos_inf_eq : Ideal.ofBits .f32 0x7F800000#32 = (⊤ : EReal) := by
  simp [Ideal.ofBits, Ideal.ieee]

/-- An extended real whose absolute value max x (-x) lies strictly below +infinity is a real number:
    at the bottom element the negation is the top element, and at the top element x itself is. -/
theorem real_of_abs_lt_inf (x : EReal)
    (h : Ideal.cmp .olt (max x (-x)) (Ideal.ofBits .f32 0x7F800000#32) = 1#1) : ∃ r : ℝ, x = (r : EReal) := by
  rw [pos_inf_eq] at h
  induction x using EReal.rec with
  | bot => simp [Ideal.cmp] at h
  | coe r => exact ⟨r, rfl⟩
  | top => simp [Ideal.cmp] at h

/-- The precondition's value 1 says that every entry of the three float arguments is a real number. -/
theorem finite_of_fn (x0 x1 x2 : Attention.SQ.Idx → EReal) (x3 : Attention.SM.Idx → BitVec 1)
    [Cert.Pre_finite_inputs.Facts]
    (h : Cert.Pre_finite_inputs.fn (F := Ideal) x0 x1 x2 x3 = fun _ => 1#1) :
    Attention.Finite x0 ∧ Attention.Finite x1 ∧ Attention.Finite x2 := by
  have e := congrFun h ValueIdx.ix0
  dsimp only [Cert.Pre_finite_inputs.fn] at e
  -- the outer conjunction of the three per-array results
  obtain ⟨e01, e2⟩ := IntOp.andi_eq_one.1 e
  obtain ⟨e0, e1⟩ := IntOp.andi_eq_one.1 e01
  -- each per-array result is a conjunction over all entries, so the test holds at every entry
  exact ⟨fun i => real_of_abs_lt_inf (x0 i) (Host.reduce_andi_all _ _ _ _ _ e0 i),
    fun i => real_of_abs_lt_inf (x1 i) (Host.reduce_andi_all _ _ _ _ _ e1 i),
    fun i => real_of_abs_lt_inf (x2 i) (Host.reduce_andi_all _ _ _ _ _ e2 i)⟩

end Attention.Pre

end
-- ==== Proof.Claims.lean ====
/-
  The five claims of the certificate, from the generated frames and runs and one hypothesis about the kernel.

  The two kernel programs' frames are the generated ones; the reference has no kernel, and its frame is its generated
  run with the result forgotten. The idealization rewrote nothing, so there is nothing to preserve. For the value
  claim, suppose the idealized kernel, started from a memory whose three float arguments hold real numbers only,
  ends with its result array equal to the attention output of the specification (the softmax-weighted average of the
  value rows) and its arguments unchanged. The precondition says exactly that the three float arguments hold real
  numbers only. The reference, started from a memory that agrees on the arguments, ends with its result at the
  composed term of its operations, and that term is the same attention output whenever the float arguments are real.
  So both programs end with the same array.
-/
import proofs.«163673_j90263032693333_2_alg».proof.Defs
import proofs.«163673_j90263032693333_2_alg».proof.Proof.Gen.Kernel.Frame
import proofs.«163673_j90263032693333_2_alg».proof.Proof.Gen.KernelIdeal.Value
import proofs.«163673_j90263032693333_2_alg».proof.Proof.Gen.ReferenceIdeal.Run
import proofs.«163673_j90263032693333_2_alg».proof.Proof.Gen.ReferenceIdeal.Read
import proofs.«163673_j90263032693333_2_alg».proof.Proof.Gen.Kernel
import proofs.«163673_j90263032693333_2_alg».proof.Proof.Gen.KernelIdeal
import proofs.«163673_j90263032693333_2_alg».proof.Proof.Gen.ReferenceIdeal
import proofs.«163673_j90263032693333_2_alg».proof.Proof.Gen.Pre_finite_inputs
import proofs.«163673_j90263032693333_2_alg».proof.Proof.Spec
import proofs.«163673_j90263032693333_2_alg».proof.Proof.RefValue
import proofs.«163673_j90263032693333_2_alg».proof.Proof.FiniteInputs

noncomputable section

open Idealize.ShloMosaic Idealize.ShloMosaic.TcCoe Idealize.SL.Sem

namespace Cert.Proof.AttnClaims

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- If the idealized kernel, on real inputs, ends with the attention output in its result array and its arguments
    unchanged, then it and the reference end with equal results from memories that agree on the arguments. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      (∀ c : Dev Cert.KernelIdeal.nD,
        Attention.Finite (m ((c.tc : Thread Cert.KernelIdeal.nD Cert.KernelIdeal.τ).loc Cert.KernelIdeal.main_arg0))
        ∧ Attention.Finite (m ((c.tc : Thread Cert.KernelIdeal.nD Cert.KernelIdeal.τ).loc Cert.KernelIdeal.main_arg1))
        ∧ Attention.Finite (m ((c.tc : Thread Cert.KernelIdeal.nD Cert.KernelIdeal.τ).loc Cert.KernelIdeal.main_arg2))) →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1)
            = Attention.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m ρ m' ρ' hpre hagree
  -- the precondition: every entry of the three float arguments is a real number
  have hfin : ∀ c : Dev Cert.KernelIdeal.nD,
      Attention.Finite (m ((c.tc : Thread Cert.KernelIdeal.nD Cert.KernelIdeal.τ).loc Cert.KernelIdeal.main_arg0))
      ∧ Attention.Finite (m ((c.tc : Thread Cert.KernelIdeal.nD Cert.KernelIdeal.τ).loc Cert.KernelIdeal.main_arg1))
      ∧ Attention.Finite (m ((c.tc : Thread Cert.KernelIdeal.nD Cert.KernelIdeal.τ).loc Cert.KernelIdeal.main_arg2)) :=
    fun c => Attention.Pre.finite_of_fn _ _ _ _ (hpre c)
  refine ⟨fun c => Attention.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    hrun m ρ hfin, ?_⟩
  -- the reference's run ends at the composed term of its operations, which is the attention output on real inputs
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Attention.Ref.ref_eq _ _ _ _ (hfin c).1 (hfin c).2.1 (hfin c).2.2

end Cert.Proof.AttnClaims

end
-- ==== Proof.Pieces.lean ====
/-
  What each control case of the kernel body leaves in the three carried buffers (running maximum, running sum, running
  weighted sums) and, in the last case, in the output block: each is one whole-buffer store, so the contents are the
  stored value, a composition of the body's arithmetic over the point's input blocks and over what the point before
  left (or, at a first block, over the reset values just stored and read back). Stated at any float instance.
-/
import proofs.«163673_j90263032693333_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a3 : Memref sig .tc .vmem S1x1024x64 .f32) (h3 : a3.IsWhole) (a4 : Memref sig .tc .vmem S1x4096x64 .f32) (h4 : a4.IsWhole)
  (a5 : Memref sig .tc .vmem S1x4096x64 .f32) (h5 : a5.IsWhole) (a6 : Memref sig .tc .vmem S1x1024x1024 .i32) (h6 : a6.IsWhole)
  (a7 : Memref sig .tc .vmem S1x1024x64 .f32) (h7 : a7.IsWhole) (a8 : Memref sig .tc .vmem S1024x1 .f32) (h8 : a8.IsWhole)
  (a9 : Memref sig .tc .vmem S1024x1 .f32) (h9 : a9.IsWhole) (a10 : Memref sig .tc .vmem S1024x64 .f32) (h10 : a10.IsWhole)
  (x0 : Vec F S1x1024x64 .f32) (x1 x2 : Vec F S1x4096x64 .f32) (x3 : Vec F S1x1024x1024 .i32)
  (xs0 xs1 : Vec F S1024x1 .f32) (xs2 : Vec F S1024x64 .f32)

/-- The 1024 rows of a resident [1, 4096, 64] block that the point reads: those from the point's row offset. -/
abbrev kvRows (i : grid0.Coords) (X : Vec F S1x4096x64 .f32) : Vec F S1x1024x64 .f32 :=
  View.ld X (Rect.unit (s := S1x4096x64) (k0_off1 i) S1x1024x64.size (k0_off1_inb i))

/-- The new running maximum of each row: the old one against the row maxima of the block's masked scores. -/
abbrev mNew (kb qb : Vec F S1x1024x64 .f32) (mb : Vec F S1x1024x1024 .i32) (mprev : Vec F S1024x1 .f32) : Vec F S1024x1 .f32 :=
  k0_pay3 (k0_pay10 kb qb mb mprev)

/-- The new running sum of each row: the old one rescaled, plus the row sums of the block's exponentials. -/
abbrev lNew (kb qb : Vec F S1x1024x64 .f32) (mb : Vec F S1x1024x1024 .i32) (mprev lprev : Vec F S1024x1 .f32) : Vec F S1024x1 .f32 :=
  k0_pay1 (k0_pay11 kb qb mb mprev) (k0_pay12 kb qb mb mprev) lprev

/-- The new running weighted sums: the old ones rescaled, plus the block's exponentials times the block's value rows. -/
abbrev aNew (kb vb qb : Vec F S1x1024x64 .f32) (mb : Vec F S1x1024x1024 .i32) (mprev : Vec F S1024x1 .f32)
    (aprev : Vec F S1024x64 .f32) : Vec F S1024x64 .f32 :=
  k0_pay2 (k0_pay8 vb) (k0_pay11 kb qb mb mprev) (k0_pay12 kb qb mb mprev) aprev

/-! ## A middle block: the three carried buffers -/

theorem sB0 (hc0 : ¬cond0_0 i) (hc1 : ¬cond0_1 i) :
    sout0_B_0 c i a3 h3 a4 h4 a5 h5 a6 h6 a7 h7 a8 h8 a9 h9 a10 h10 hc0 hc1 x0 x1 x2 x3 xs0 xs1 xs2
      = mNew (kvRows i x1) x0 x3 xs0 := by
  unfold sout0_B_0
  rw [View.read_writes_eq_canon _ _ _ (scover0_B_0 c i a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero (S := S1024x1) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2]
  try rfl

theorem sB1 (hc0 : ¬cond0_0 i) (hc1 : ¬cond0_1 i) :
    sout0_B_1 c i a3 h3 a4 h4 a5 h5 a6 h6 a7 h7 a8 h8 a9 h9 a10 h10 hc0 hc1 x0 x1 x2 x3 xs0 xs1 xs2
      = lNew (kvRows i x1) x0 x3 xs0 xs1 := by
  unfold sout0_B_1
  rw [View.read_writes_eq_canon _ _ _ (scover0_B_1 c i a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero (S := S1024x1) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2]
  try rfl

theorem sB2 (hc0 : ¬cond0_0 i) (hc1 : ¬cond0_1 i) :
    sout0_B_2 c i a3 h3 a4 h4 a5 h5 a6 h6 a7 h7 a8 h8 a9 h9 a10 h10 hc0 hc1 x0 x1 x2 x3 xs0 xs1 xs2
      = aNew (kvRows i x1) (kvRows i x2) x0 x3 xs0 xs2 := by
  unfold sout0_B_2
  rw [View.read_writes_eq_canon _ _ _ (scover0_B_2 c i a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero (S := S1024x64) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2]
  try rfl

/-! ## The last block: the three carried buffers as in a middle block, and the output: the weighted sums over the sum -/

theorem sC0 (hc0 : ¬cond0_0 i) (hc1 : cond0_1 i) :
    sout0_C_0 c i a3 h3 a4 h4 a5 h5 a6 h6 a7 h7 a8 h8 a9 h9 a10 h10 hc0 hc1 x0 x1 x2 x3 xs0 xs1 xs2
      = mNew (kvRows i x1) x0 x3 xs0 := by
  unfold sout0_C_0
  rw [View.read_writes_eq_canon _ _ _ (scover0_C_0 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero (S := S1024x1) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

theorem sC1 (hc0 : ¬cond0_0 i) (hc1 : cond0_1 i) :
    sout0_C_1 c i a3 h3 a4 h4 a5 h5 a6 h6 a7 h7 a8 h8 a9 h9 a10 h10 hc0 hc1 x0 x1 x2 x3 xs0 xs1 xs2
      = lNew (kvRows i x1) x0 x3 xs0 xs1 := by
  unfold sout0_C_1
  rw [View.read_writes_eq_canon _ _ _ (scover0_C_1 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero (S := S1024x1) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

theorem sC2 (hc0 : ¬cond0_0 i) (hc1 : cond0_1 i) :
    sout0_C_2 c i a3 h3 a4 h4 a5 h5 a6 h6 a7 h7 a8 h8 a9 h9 a10 h10 hc0 hc1 x0 x1 x2 x3 xs0 xs1 xs2
      = aNew (kvRows i x1) (kvRows i x2) x0 x3 xs0 xs2 := by
  unfold sout0_C_2
  rw [View.read_writes_eq_canon _ _ _ (scover0_C_2 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero (S := S1024x64) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

theorem oC4 (hc0 : ¬cond0_0 i) (hc1 : cond0_1 i) :
    out0_C_4 c i a3 h3 a4 h4 a5 h5 a6 h6 a7 h7 a8 h8 a9 h9 a10 h10 hc0 hc1 x0 x1 x2 x3 xs0 xs1 xs2
      = k0_pay4 (aNew (kvRows i x1) (kvRows i x2) x0 x3 xs0 xs2) (lNew (kvRows i x1) x0 x3 xs0 xs1) := by
  unfold out0_C_4
  rw [View.read_writes_eq_canon _ _ _ (cover0_C_4 c i a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero (S := S1x1024x64) hz3]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

/-! ## The first block: the carried buffers are first reset (to -infinity, 0 and 0) and read back -/

theorem sA0 (hc0 : cond0_0 i) (hc1 : ¬cond0_1 i) :
    sout0_A_0 c i a3 h3 a4 h4 a5 h5 a6 h6 a7 h7 a8 h8 a9 h9 a10 h10 hc0 hc1 x0 x1 x2 x3
      = mNew (kvRows i x1) x0 x3 k0_pay5 := by
  unfold sout0_A_0
  rw [View.read_writes_eq_canon _ _ _ (scover0_A_0 c i a3 h3 a4 h4 a5 h5 a6 h6 a7 h7 a8 h8 a9 h9 a10 h10 hc0 hc1 x0 x1 x2 x3)]
  unfold kernelRun0_A
  dsimp only
  sl_unfold_words
  rw [View.canon_cons_unit_zero (S := S1024x1) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

theorem sA1 (hc0 : cond0_0 i) (hc1 : ¬cond0_1 i) :
    sout0_A_1 c i a3 h3 a4 h4 a5 h5 a6 h6 a7 h7 a8 h8 a9 h9 a10 h10 hc0 hc1 x0 x1 x2 x3
      = lNew (kvRows i x1) x0 x3 k0_pay5 k0_pay6 := by
  unfold sout0_A_1
  rw [View.read_writes_eq_canon _ _ _ (scover0_A_1 c i a3 h3 a4 h4 a5 h5 a6 h6 a7 h7 a8 h8 a9 h9 a10 h10 hc0 hc1 x0 x1 x2 x3)]
  unfold kernelRun0_A
  dsimp only
  sl_unfold_words
  rw [View.canon_cons_unit_zero (S := S1024x1) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

theorem sA2 (hc0 : cond0_0 i) (hc1 : ¬cond0_1 i) :
    sout0_A_2 c i a3 h3 a4 h4 a5 h5 a6 h6 a7 h7 a8 h8 a9 h9 a10 h10 hc0 hc1 x0 x1 x2 x3
      = aNew (kvRows i x1) (kvRows i x2) x0 x3 k0_pay5 k0_pay7 := by
  unfold sout0_A_2
  rw [View.read_writes_eq_canon _ _ _ (scover0_A_2 c i a3 h3 a4 h4 a5 h5 a6 h6 a7 h7 a8 h8 a9 h9 a10 h10 hc0 hc1 x0 x1 x2 x3)]
  unfold kernelRun0_A
  dsimp only
  sl_unfold_words
  rw [View.canon_cons_unit_zero (S := S1024x64) hz2]
  simp only [View.readAt_eq_ld, h3.read_unread, h4.read_unread, h5.read_unread, h6.read_unread, h8.read_unread, h9.read_unread,
    h10.read_unread, View.ld_unit_zero (S := S1x1024x64) hz3, View.ld_unit_zero (S := S1x1024x1024) hz3,
    View.ld_unit_zero (S := S1024x1) hz2, View.ld_unit_zero (S := S1024x64) hz2,
    View.readCov_unit_zero (S := S1024x1) _ hz2, View.readCov_unit_zero (S := S1024x64) _ hz2]
  try rfl

end Cert.KernelIdeal.Pieces

end
-- ==== Proof.LibColumns.lean ====
/-
  Small layout facts about columns, read at an index.

  A length-`a` vector viewed as an `[a, 1]` column holds, in row `p`, the vector's entry `p`; an `[a, 1]` column
  broadcast along its unit axis to `[a, b]` holds, at `(p, q)`, the column's entry in row `p`, whatever `q`. These are the two
  steps by which a per-row statistic (a row maximum, a row sum) is subtracted from every entry of its row. Both are instances
  of the row-major reading of a shape cast and of the trailing-axes reading of a broadcast.
-/
import Idealize.ShloMosaic.Lib.ValueIdx
import Idealize.ShloMosaic.Lib.ValueLayout
import Idealize.ShloMosaic.Lib.Pipeline.Value

noncomputable section

namespace Idealize.ShloMosaic.ColumnLayout

open Idealize.ShloMosaic Idealize.ShloMosaic.ValueIdx

variable {α : Type}

/-- A length-`a` vector cast to an `[a, 1]` column reads, at `(p, u)`, the vector at `p`: the row-major position of
    `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`: the unit axis is read at `0`,
    the row axis at the index's own row. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LibColumnCast.lean ====
/-
  A vector of length `a` viewed as a column `[a, 1]`, read at an index.

  Both shapes list their entries in the same row-major order, and the column's entry (i, 0) is the
  i-th of them, so the column at (i, 0) is the vector at i.
-/
import Idealize.ShloMosaic.Lib.Pipeline.Value
import Idealize.ShloMosaic.Lib.ValueIdx

namespace Idealize.ShloMosaic.ValueIdx

variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibLaneSum.lean ====
/-
  The sum along the rows of an `a × n` block, viewed as a column.

  A float lane sum over the second axis of an `a × n` block, started from zero, gives one number per row; recast as
  an `a × 1` column, its entry `(r, 0)` is the plain finite sum of the block's row `r` over its `n` columns.
-/
import Idealize.ShloMosaic.PureOps.Ideal.Laws
import Idealize.ShloMosaic.Lib.Pipeline.Value
import Idealize.ShloMosaic.Lib.ValueIdx
import proofs.«163673_j90263032693333_2_alg».proof.Proof.LibColumnCast

namespace Idealize.ShloMosaic.ValueIdx

/-- A lane sum of an `a × n` block from zero, recast as a column, at row `r`: the sum of the block's row `r`. -/
theorem laneSum_column_apply {a n : ℕ} (src : FVec Ideal ⟨2, ![a, n]⟩ .f32)
    (hacc : (0x00000000#32 : BitVec 32) = 0x00000000#32)
    (h : (⟨2, ![a, n]⟩ : Shape).Reduces [1] ⟨1, ![a]⟩) (hc : (⟨1, ![a]⟩ : Shape).ShapeCasts ⟨2, ![a, 1]⟩)
    (r : Fin a) (u : Fin 1) :
    shapeCast ⟨2, ![a, 1]⟩ (multiReduction .add [1] ⟨1, ![a]⟩ src 0x00000000#32 h (.inl rfl) hacc) hc (ix2 r u)
      = ∑ c : Fin n, src (ix2 r c) := by
  refine (shapeCast_a_a1_apply _ hc r u).trans ?_
  refine (Ideal.multiReduction_add_single src 0x00000000#32 h (.inl rfl) hacc (ix1 r)).trans ?_
  refine Finset.sum_congr rfl fun k _ => ?_
  exact congrArg src (funext fun b => Fin.ext (by match b with | ⟨0, _⟩ => rfl | ⟨1, _⟩ => rfl))

end Idealize.ShloMosaic.ValueIdx
-- ==== Proof.LibLaneMax.lean ====
/-
  The maximum along the rows of an `a × n` block.

  A float lane maximum over the second axis of an `a × n` block, started from the word of -infinity, gives one number per
  row: at row `r` it is the maximum, folded from that word's value, of the block's row `r` over its `n` columns.
-/
import Idealize.ShloMosaic.PureOps.Ideal.Laws
import Idealize.ShloMosaic.Lib.Pipeline.Value
import Idealize.ShloMosaic.Lib.ValueIdx

namespace Idealize.ShloMosaic.ValueIdx

/-- A lane maximum of an `a × n` block from -infinity, at row `r`: the fold of `max` over the block's row `r`. -/
theorem laneMax_apply {a n : ℕ} (src : FVec Ideal ⟨2, ![a, n]⟩ .f32)
    (hacc : (0xFF800000#32 : BitVec 32) = 0xFF800000#32)
    (h : (⟨2, ![a, n]⟩ : Shape).Reduces [1] ⟨1, ![a]⟩) (r : Fin a) :
    multiReduction .maximumf [1] ⟨1, ![a]⟩ src 0xFF800000#32 h (.inl rfl) hacc (ix1 r)
      = (Finset.univ : Finset (Fin n)).fold max (Ideal.ofBits .f32 0xFF800000#32) (fun c => src (ix2 r c)) := by
  refine (Ideal.multiReduction_maximumf_single src 0xFF800000#32 h (.inl rfl) hacc (ix1 r)).trans ?_
  refine Finset.fold_congr fun c _ => ?_
  exact congrArg src (funext fun b => Fin.ext (by match b with | ⟨0, _⟩ => rfl | ⟨1, _⟩ => rfl))

end Idealize.ShloMosaic.ValueIdx
-- ==== Proof.Payloads.lean ====
/-
  The body's arithmetic read at an index, at the ideal values (floats are extended reals, operations exact, changes of
  format the identity). Rows are indexed by `r`, the block's key rows by `c`, features by `d`, value columns by `e`.

  * the masked score of (r, c): the sum over the 64 features of (query * 1/8-word) * key where the mask word is
    non-zero, the fill word elsewhere;
  * the new running maximum of row r: the old one against the maximum, started from -infinity, of the row's scores;
  * the rescaling factor exp(old maximum - new maximum) and the exponentials exp(score - new maximum);
  * the new running sum: factor * old sum + the sum over the block's 1024 columns of the exponentials;
  * the new weighted sums: factor * old + the sum over the block's 1024 key rows of exponential * value;
  * the output: weighted sums divided by the sum of the row.
-/
import proofs.«163673_j90263032693333_2_alg».proof.Proof.Gen.KernelIdeal.Skeleton
import proofs.«163673_j90263032693333_2_alg».proof.Proof.LibColumns
import proofs.«163673_j90263032693333_2_alg».proof.Proof.LibLaneSum
import proofs.«163673_j90263032693333_2_alg».proof.Proof.LibLaneMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Idealize.ShloMosaic.ColumnLayout

/-- The dimension record of the score product: queries [1024, 64] against keys [1024, 64], contracting the features. -/
abbrev DQK := dot_S1024x64_S1024x64_S1024x1024_1_1_0_0_n_n
/-- The dimension record of the value product: weights [1024, 1024] against values [1024, 64], contracting the key rows. -/
abbrev DPV := dot_S1024x1024_S1024x64_S1024x64_1_0_0_1_n_n

theorem qk_lhs0 (j : S1024x1024.Idx) (q : DQK.contr.Idx) : (DQK.lhsIdx j q 0).val = (j 0).val := by
  unfold DotDims.lhsIdx
  rw [dif_neg (show ¬(0 : Fin S1024x64.rank) ∈ DQK.lhsBatch by decide), dif_pos (show (0 : Fin S1024x64.rank) ∈ DQK.lhsNonContracting by decide)]
  rfl
theorem qk_lhs1 (j : S1024x1024.Idx) (q : DQK.contr.Idx) : (DQK.lhsIdx j q 1).val = (q ⟨0, by decide⟩).val :=
  DQK.lhsIdx_val_of_single rfl j q
theorem qk_rhs0 (j : S1024x1024.Idx) (q : DQK.contr.Idx) : (DQK.rhsIdx j q 0).val = (j 1).val := by
  unfold DotDims.rhsIdx
  rw [dif_neg (show ¬(0 : Fin S1024x64.rank) ∈ DQK.rhsBatch by decide), dif_pos (show (0 : Fin S1024x64.rank) ∈ DQK.rhsNonContracting by decide)]
  rfl
theorem qk_rhs1 (j : S1024x1024.Idx) (q : DQK.contr.Idx) : (DQK.rhsIdx j q 1).val = (q ⟨0, by decide⟩).val :=
  DQK.rhsIdx_val_of_single rfl j q

theorem pv_lhs0 (j : S1024x64.Idx) (q : DPV.contr.Idx) : (DPV.lhsIdx j q 0).val = (j 0).val := by
  unfold DotDims.lhsIdx
  rw [dif_neg (show ¬(0 : Fin S1024x1024.rank) ∈ DPV.lhsBatch by decide), dif_pos (show (0 : Fin S1024x1024.rank) ∈ DPV.lhsNonContracting by decide)]
  rfl
theorem pv_lhs1 (j : S1024x64.Idx) (q : DPV.contr.Idx) : (DPV.lhsIdx j q 1).val = (q ⟨0, by decide⟩).val :=
  DPV.lhsIdx_val_of_single rfl j q
theorem pv_rhs0 (j : S1024x64.Idx) (q : DPV.contr.Idx) : (DPV.rhsIdx j q 0).val = (q ⟨0, by decide⟩).val :=
  DPV.rhsIdx_val_of_single rfl j q
theorem pv_rhs1 (j : S1024x64.Idx) (q : DPV.contr.Idx) : (DPV.rhsIdx j q 1).val = (j 1).val := by
  unfold DotDims.rhsIdx
  rw [dif_neg (show ¬(1 : Fin S1024x64.rank) ∈ DPV.rhsBatch by decide), dif_pos (show (1 : Fin S1024x64.rank) ∈ DPV.rhsNonContracting by decide)]
  rfl

/-- A matrix product of a [1024, 64] block with a [1024, 64] block over the features, into zero, at (r, c). -/
theorem matmul_qk_apply (L R : FVec Ideal S1024x64 .bf16) (r c : Fin 1024) :
    matmul DQK none L R (constant S1024x1024 .f32 0x00000000#32) (ix2 r c) = ∑ d : Fin 64, L (ix2 r d) * R (ix2 c d) := by
  simp only [matmul]
  rw [Ideal.matmul_constant_zero_apply, ← Equiv.sum_comp (ValueIdx.contrEquiv1 DQK 64 rfl rfl).symm]
  refine Finset.sum_congr rfl fun k _ => ?_
  have hk := ValueIdx.contrEquiv1_symm_val DQK 64 rfl rfl k
  have el : DQK.lhsIdx (ix2 r c) ((ValueIdx.contrEquiv1 DQK 64 rfl rfl).symm k) = ix2 r k := funext fun a => Fin.ext (by
    match a with
    | ⟨0, _⟩ => exact qk_lhs0 _ _
    | ⟨1, _⟩ => exact (qk_lhs1 _ _).trans hk)
  have er : DQK.rhsIdx (ix2 r c) ((ValueIdx.contrEquiv1 DQK 64 rfl rfl).symm k) = ix2 c k := funext fun a => Fin.ext (by
    match a with
    | ⟨0, _⟩ => exact qk_rhs0 _ _
    | ⟨1, _⟩ => exact (qk_rhs1 _ _).trans hk)
  rw [el, er]

/-- A matrix product of a [1024, 1024] block with a [1024, 64] block over the key rows, into zero, at (r, e). -/
theorem matmul_pv_apply (L : FVec Ideal S1024x1024 .bf16) (R : FVec Ideal S1024x64 .bf16) (r : Fin 1024) (e : Fin 64) :
    matmul DPV none L R (constant S1024x64 .f32 0x00000000#32) (ix2 r e) = ∑ c : Fin 1024, L (ix2 r c) * R (ix2 c e) := by
  simp only [matmul]
  rw [Ideal.matmul_constant_zero_apply, ← Equiv.sum_comp (ValueIdx.contrEquiv1 DPV 1024 rfl rfl).symm]
  refine Finset.sum_congr rfl fun k _ => ?_
  have hk := ValueIdx.contrEquiv1_symm_val DPV 1024 rfl rfl k
  have el : DPV.lhsIdx (ix2 r e) ((ValueIdx.contrEquiv1 DPV 1024 rfl rfl).symm k) = ix2 r k := funext fun a => Fin.ext (by
    match a with
    | ⟨0, _⟩ => exact pv_lhs0 _ _
    | ⟨1, _⟩ => exact (pv_lhs1 _ _).trans hk)
  have er : DPV.rhsIdx (ix2 r e) ((ValueIdx.contrEquiv1 DPV 1024 rfl rfl).symm k) = ix2 k e := funext fun a => Fin.ext (by
    match a with
    | ⟨0, _⟩ => exact (pv_rhs0 _ _).trans hk
    | ⟨1, _⟩ => exact pv_rhs1 _ _)
  rw [el, er]

variable (kb qb vb : Vec Ideal S1x1024x64 .f32) (mb : Vec Ideal S1x1024x1024 .i32)
  (mprev lprev : Vec Ideal S1024x1 .f32) (aprev : Vec Ideal S1024x64 .f32)

/-- The masked score of query row `r` against the block's key row `c`. -/
theorem score_apply (r c : Fin 1024) :
    k0_pay9 (F := Ideal) kb qb mb (ix2 r c)
      = Scalar.select (IntOp.cmpi .ne (mb (ix3 (0 : Fin 1) r c)) 0#32)
          (∑ d : Fin 64, (qb (ix3 (0 : Fin 1) r d) * Ideal.ofBits .f32 0x3E000000#32) * kb (ix3 (0 : Fin 1) c d))
          (Ideal.ofBits .f32 0xCE6E6B28#32) := by
  unfold k0_pay9
  try dsimp only
  rw [select_apply, matmul_qk_apply]
  refine congr (congr (congrArg Scalar.select ?_) ?_) rfl
  · show IntOp.cmpi .ne (shapeCast S1024x1024 mb shapeCasts_S1x1024x1024_S1024x1024 (ix2 r c)) _ = _
    rw [shapeCast_1ab_ab_apply]; rfl
  · refine Finset.sum_congr rfl fun d _ => ?_
    show (shapeCast S1024x64 qb shapeCasts_S1x1024x64_S1024x64 (ix2 r d) * _) * shapeCast S1024x64 kb shapeCasts_S1x1024x64_S1024x64 (ix2 c d) = _
    rw [shapeCast_1ab_ab_apply, shapeCast_1ab_ab_apply]; rfl

/-- The new running maximum of row `r`. -/
theorem max_apply (r : Fin 1024) (u : Fin 1) :
    k0_pay10 (F := Ideal) kb qb mb mprev (ix2 r u)
      = max (mprev (ix2 r u)) ((Finset.univ : Finset (Fin 1024)).fold max (Ideal.ofBits .f32 0xFF800000#32)
          (fun c => k0_pay9 (F := Ideal) kb qb mb (ix2 r c))) := by
  unfold k0_pay10
  try dsimp only
  rw [maximumf_apply, ColumnLayout.shapeCast_a_a1_apply]
  exact congrArg (max _) (ValueIdx.laneMax_apply (k0_pay9 (F := Ideal) kb qb mb) _ _ r)

/-- The rescaling factor of row `r`. -/
theorem factor_apply (r : Fin 1024) (u : Fin 1) :
    k0_pay11 (F := Ideal) kb qb mb mprev (ix2 r u)
      = Ideal.exp (mprev (ix2 r u) - k0_pay10 (F := Ideal) kb qb mb mprev (ix2 r u)) := rfl

/-- The exponential of (r, c): the score less the row's new maximum. -/
theorem weight_apply (r c : Fin 1024) :
    k0_pay12 (F := Ideal) kb qb mb mprev (ix2 r c)
      = Ideal.exp (k0_pay9 (F := Ideal) kb qb mb (ix2 r c) - k0_pay10 (F := Ideal) kb qb mb mprev (ix2 r (0 : Fin 1))) := by
  unfold k0_pay12
  try dsimp only
  show Ideal.exp (k0_pay9 (F := Ideal) kb qb mb (ix2 r c) - broadcastTo S1024x1024 (k0_pay10 (F := Ideal) kb qb mb mprev) broadcasts_S1024x1_S1024x1024 (ix2 r c)) = _
  rw [broadcastTo_a1_ab_apply]

/-- The new running sum of row `r`. -/
theorem sum_apply (v29 : FVec Ideal S1024x1 .f32) (v32 : FVec Ideal S1024x1024 .f32) (v33 : Vec Ideal S1024x1 .f32)
    (r : Fin 1024) (u : Fin 1) :
    k0_pay1 (F := Ideal) v29 v32 v33 (ix2 r u) = v29 (ix2 r u) * v33 (ix2 r u) + ∑ c : Fin 1024, v32 (ix2 r c) := by
  unfold k0_pay1
  try dsimp only
  rw [shapeCast_self, addf_apply, mulf_apply, ValueIdx.laneSum_column_apply]

/-- The new weighted sum of row `r`, value column `e`. -/
theorem acc_apply (v12 : FVec Ideal S1024x64 .bf16) (v29 : FVec Ideal S1024x1 .f32) (v32 : FVec Ideal S1024x1024 .f32)
    (v41 : Vec Ideal S1024x64 .f32) (r : Fin 1024) (e : Fin 64) :
    k0_pay2 (F := Ideal) v12 v29 v32 v41 (ix2 r e)
      = v29 (ix2 r (0 : Fin 1)) * v41 (ix2 r e) + ∑ c : Fin 1024, v32 (ix2 r c) * v12 (ix2 c e) := by
  unfold k0_pay2
  try dsimp only
  rw [shapeCast_self, addf_apply, mulf_apply, broadcastTo_a1_ab_apply, matmul_pv_apply]
  rfl

/-- The value rows of the block, as the matrix product takes them. -/
theorem vals_apply (c : Fin 1024) (e : Fin 64) : k0_pay8 (F := Ideal) vb (ix2 c e) = vb (ix3 (0 : Fin 1) c e) := by
  unfold k0_pay8
  try dsimp only
  show shapeCast S1024x64 vb shapeCasts_S1x1024x64_S1024x64 (ix2 c e) = _
  rw [shapeCast_1ab_ab_apply]

/-- The stored running maximum is the computed one. -/
theorem keep_apply (v27 : FVec Ideal S1024x1 .f32) : k0_pay3 (F := Ideal) v27 = v27 := by
  unfold k0_pay3
  exact shapeCast_self _ _

/-- The output block at (0, r, e): the weighted sum over the row's sum. -/
theorem out_apply (v56 : Vec Ideal S1024x64 .f32) (v57 : Vec Ideal S1024x1 .f32) (u : Fin 1) (r : Fin 1024) (e : Fin 64) :
    k0_pay4 (F := Ideal) v56 v57 (ix3 u r e) = Ideal.div (v56 (ix2 r e)) (v57 (ix2 r (0 : Fin 1))) := by
  unfold k0_pay4
  try dsimp only
  rw [shapeCast_ab_1ab_apply, divf_apply, broadcastTo_a1_ab_apply]

/-- The reset values: -infinity for the running maximum, zero for the running sum and the weighted sums. -/
theorem reset_max_apply (j : S1024x1.Idx) : k0_pay5 (F := Ideal) j = Ideal.ofBits .f32 0xFF800000#32 := by
  unfold k0_pay5; (try dsimp only); rw [shapeCast_self]; rfl
theorem reset_sum_apply (j : S1024x1.Idx) : k0_pay6 (F := Ideal) j = Ideal.ofBits .f32 0x00000000#32 := by
  unfold k0_pay6; (try dsimp only); rw [shapeCast_self]; rfl
theorem reset_acc_apply (j : S1024x64.Idx) : k0_pay7 (F := Ideal) j = Ideal.ofBits .f32 0x00000000#32 := by
  unfold k0_pay7; (try dsimp only); rw [shapeCast_self]; rfl

end Cert.KernelIdeal.Pay

end
-- ==== Proof.RowStep.lean ====
/-
  One row of the block-by-block softmax average, over the extended reals.

  A row's running state is a triple: the running maximum `mv`, the running sum `lv` of the exponentials of the
  scores seen so far shifted by that maximum, and for each of the 64 value columns the running weighted sum `av e`.
  The invariant says these are the real numbers they should be for SOME real shift `M` (that `M` is the
  maximum is never needed: any common real shift cancels in the final quotient). The first block starts from the
  state (-infinity, 0, 0): the factor exp(-infinity - M') is 0 and kills the old sums. A later block multiplies the old
  sums by exp(M - M') and adds the block's sums, which over the reals re-expresses the old sums under the new shift.
  After all 4096 scores the quotient of a weighted sum by the plain sum is the softmax-weighted average.
-/
import Idealize.ShloMosaic.PureOps.Ideal
import Mathlib.Data.Finset.Fold
import proofs.«163673_j90263032693333_2_alg».proof.Proof.OnlineSoftmax

noncomputable section

namespace Attention.Row

open Finset Idealize.ShloMosaic

/-- The coercion of the reals into the extended reals commutes with finite sums. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real is the real quotient. -/
theorem div_coe_coe (x y : ℝ) (hy : y ≠ 0) : Ideal.div (x : EReal) (y : EReal) = ((x / y : ℝ) : EReal) := by
  rw [Ideal.div_coe hy, ← EReal.coe_mul, mul_one_div]

/-- The maximum, started from -infinity, of a nonempty finite family of reals is a real. -/
theorem fold_max_real {ι : Type*} [Fintype ι] [Nonempty ι] (y : ι → ℝ) :
    ∃ B : ℝ, (Finset.univ : Finset ι).fold max (⊥ : EReal) (fun c => (y c : EReal)) = (B : EReal) := by
  refine ⟨((Finset.univ : Finset ι).fold max (⊥ : EReal) (fun c => (y c : EReal))).toReal, (EReal.coe_toReal ?_ ?_).symm⟩
  · exact ne_of_lt ((Finset.fold_max_lt _).mpr ⟨bot_lt_top, fun c _ => EReal.coe_lt_top _⟩)
  · obtain ⟨c0⟩ := ‹Nonempty ι›
    exact ne_of_gt ((Finset.lt_fold_max _).mpr (Or.inr ⟨c0, Finset.mem_univ _, EReal.bot_lt_coe _⟩))

/-- The coercion commutes with the maximum of two reals. -/
theorem coe_max' (a b : ℝ) : max (a : EReal) (b : EReal) = ((max a b : ℝ) : EReal) :=
  (EReal.coe_strictMono.monotone.map_max).symm

/-- The running state of a row after the scores indexed by `S`: for some real shift `M` the three components are
    the shift, the sum of the shifted exponentials, and the weighted sums. -/
def RowInv (S : Finset ℕ) (x : ℕ → ℝ) (v : ℕ → Fin 64 → ℝ) (mv lv : EReal) (av : Fin 64 → EReal) : Prop :=
  ∃ M : ℝ, mv = (M : EReal) ∧ lv = ((∑ s ∈ S, Real.exp (x s - M) : ℝ) : EReal)
    ∧ ∀ e, av e = ((∑ s ∈ S, Real.exp (x s - M) * v s e : ℝ) : EReal)

/-- The first block: from the state (-infinity, 0, 0). -/
theorem RowInv.first (x : ℕ → ℝ) (v : ℕ → Fin 64 → ℝ) :
    RowInv (range (0 + 1024)) x v
      (max (⊥ : EReal) ((univ : Finset (Fin 1024)).fold max (⊥ : EReal) fun c => ((x (0 + c.val) : ℝ) : EReal)))
      (Ideal.exp ((⊥ : EReal) - max (⊥ : EReal) ((univ : Finset (Fin 1024)).fold max (⊥ : EReal) fun c => ((x (0 + c.val) : ℝ) : EReal))) * 0
        + ∑ c : Fin 1024, Ideal.exp (((x (0 + c.val) : ℝ) : EReal)
            - max (⊥ : EReal) ((univ : Finset (Fin 1024)).fold max (⊥ : EReal) fun c => ((x (0 + c.val) : ℝ) : EReal))))
      (fun e => Ideal.exp ((⊥ : EReal) - max (⊥ : EReal) ((univ : Finset (Fin 1024)).fold max (⊥ : EReal) fun c => ((x (0 + c.val) : ℝ) : EReal))) * 0
        + ∑ c : Fin 1024, Ideal.exp (((x (0 + c.val) : ℝ) : EReal)
            - max (⊥ : EReal) ((univ : Finset (Fin 1024)).fold max (⊥ : EReal) fun c => ((x (0 + c.val) : ℝ) : EReal)))
              * ((v (0 + c.val) e : ℝ) : EReal)) := by
  obtain ⟨B, hB⟩ := fold_max_real (fun c : Fin 1024 => x (0 + c.val))
  rw [hB, max_eq_right bot_le]
  have hexp : ∀ c : Fin 1024, Ideal.exp (((x (0 + c.val) : ℝ) : EReal) - (B : EReal)) = ((Real.exp (x (0 + c.val) - B) : ℝ) : EReal) :=
    fun c => by rw [← EReal.coe_sub]; rfl
  refine ⟨B, rfl, ?_, fun e => ?_⟩
  · rw [mul_zero, zero_add]
    simp only [hexp]
    rw [coe_sum]
    refine congrArg (fun r : ℝ => (r : EReal)) ?_
    rw [Finset.sum_range_add, Finset.sum_range_zero, zero_add]
    exact Fin.sum_univ_eq_sum_range (fun c => Real.exp (x (0 + c) - B)) 1024
  · dsimp only
    rw [mul_zero, zero_add]
    simp only [hexp, ← EReal.coe_mul]
    rw [coe_sum]
    refine congrArg (fun r : ℝ => (r : EReal)) ?_
    rw [Finset.sum_range_add, Finset.sum_range_zero, zero_add]
    exact Fin.sum_univ_eq_sum_range (fun c => Real.exp (x (0 + c) - B) * v (0 + c) e) 1024

/-- A later block: the old sums rescaled to the new shift, plus the block's sums. -/
theorem RowInv.step {a : ℕ} {x : ℕ → ℝ} {v : ℕ → Fin 64 → ℝ} {mv lv : EReal} {av : Fin 64 → EReal}
    (h : RowInv (range a) x v mv lv av) :
    RowInv (range (a + 1024)) x v
      (max mv ((univ : Finset (Fin 1024)).fold max (⊥ : EReal) fun c => ((x (a + c.val) : ℝ) : EReal)))
      (Ideal.exp (mv - max mv ((univ : Finset (Fin 1024)).fold max (⊥ : EReal) fun c => ((x (a + c.val) : ℝ) : EReal))) * lv
        + ∑ c : Fin 1024, Ideal.exp (((x (a + c.val) : ℝ) : EReal)
            - max mv ((univ : Finset (Fin 1024)).fold max (⊥ : EReal) fun c => ((x (a + c.val) : ℝ) : EReal))))
      (fun e => Ideal.exp (mv - max mv ((univ : Finset (Fin 1024)).fold max (⊥ : EReal) fun c => ((x (a + c.val) : ℝ) : EReal))) * av e
        + ∑ c : Fin 1024, Ideal.exp (((x (a + c.val) : ℝ) : EReal)
            - max mv ((univ : Finset (Fin 1024)).fold max (⊥ : EReal) fun c => ((x (a + c.val) : ℝ) : EReal)))
              * ((v (a + c.val) e : ℝ) : EReal)) := by
  obtain ⟨M, rfl, rfl, hav⟩ := h
  obtain ⟨B, hB⟩ := fold_max_real (fun c : Fin 1024 => x (a + c.val))
  rw [hB, coe_max']
  have hexp : ∀ c : Fin 1024, Ideal.exp (((x (a + c.val) : ℝ) : EReal) - ((max M B : ℝ) : EReal))
      = ((Real.exp (x (a + c.val) - max M B) : ℝ) : EReal) := fun c => by rw [← EReal.coe_sub]; rfl
  have hα : Ideal.exp ((M : EReal) - ((max M B : ℝ) : EReal)) = ((Real.exp (M - max M B) : ℝ) : EReal) := by
    rw [← EReal.coe_sub]; rfl
  refine ⟨max M B, rfl, ?_, fun e => ?_⟩
  · rw [hα]
    simp only [hexp]
    rw [coe_sum, ← EReal.coe_mul, ← EReal.coe_add]
    refine congrArg (fun r : ℝ => (r : EReal)) ?_
    rw [Finset.sum_range_add, OnlineSoftmax.rescale_one_on]
    exact congrArg (_ + ·) (Fin.sum_univ_eq_sum_range (fun c => Real.exp (x (a + c) - max M B)) 1024)
  · dsimp only
    rw [hav e, hα]
    simp only [hexp, ← EReal.coe_mul]
    rw [coe_sum, ← EReal.coe_add]
    refine congrArg (fun r : ℝ => (r : EReal)) ?_
    rw [Finset.sum_range_add, OnlineSoftmax.rescale_on (range a) x (fun s => v s e)]
    exact congrArg (_ + ·) (Fin.sum_univ_eq_sum_range (fun c => Real.exp (x (a + c) - max M B) * v (a + c) e) 1024)

/-- After all 4096 scores, a weighted sum divided by the plain sum is the softmax-weighted average. -/
theorem RowInv.final {x : ℕ → ℝ} {v : ℕ → Fin 64 → ℝ} {mv lv : EReal} {av : Fin 64 → EReal}
    (h : RowInv (range 4096) x v mv lv av) (e : Fin 64) :
    Ideal.div (av e) lv
      = (((∑ s : Fin 4096, Real.exp (x s.val) * v s.val e) / (∑ s : Fin 4096, Real.exp (x s.val)) : ℝ) : EReal) := by
  obtain ⟨M, -, rfl, hav⟩ := h
  have hpos : (0 : ℝ) < ∑ s ∈ range 4096, Real.exp (x s - M) :=
    Finset.sum_pos (fun _ _ => Real.exp_pos _) ⟨0, Finset.mem_range.mpr (by norm_num)⟩
  rw [hav e, div_coe_coe _ _ (ne_of_gt hpos)]
  congr 1
  rw [Finset.sum_range, Finset.sum_range]
  exact OnlineSoftmax.quot_shift (fun s : Fin 4096 => x s.val) (fun s => v s.val e) M

end Attention.Row

end
-- ==== Proof.RowBlock.lean ====
/-
  One key/value block of the running softmax, for one query row, at the ideal values.

  Given that the point's query block, key rows, value rows and mask block are read off the argument arrays Q, K, V and the
  mask at batch `n`, query-row offset `qo` and key-row offset `ko`, and that Q, K and V hold real numbers:
  the block's masked score of (r, c) is the real score of query row qo + r against key row ko + c; so the three values the
  body computes for row r (new maximum, new sum, new weighted sums) are one step of the row's running state, from the reset
  values at a first block (ko = 0) and from what the point before left otherwise.
-/
import proofs.«163673_j90263032693333_2_alg».proof.Proof.Payloads
import proofs.«163673_j90263032693333_2_alg».proof.Proof.Spec
import proofs.«163673_j90263032693333_2_alg».proof.Proof.RowStep

noncomputable section

namespace Cert.KernelIdeal.RowBlock

open Cert.KernelIdeal Cert.KernelIdeal.Gen Idealize.ShloMosaic Idealize.ShloMosaic.ValueIdx
open Attention Attention.Row Finset

/-- The real scores of query row `qr` of batch `n`, indexed by the key row as a natural number (0 off the array). -/
def xrow (Q K : SQ.Idx → EReal) (Mk : SM.Idx → BitVec 1) (n qr : ℕ) (s : ℕ) : ℝ :=
  if h : n < 8 ∧ qr < 4096 ∧ s < 4096 then Attention.score Q K Mk ⟨n, h.1⟩ ⟨qr, h.2.1⟩ ⟨s, h.2.2⟩ else 0

/-- The real value rows of batch `n`, indexed by the key row as a natural number (0 off the array). -/
def vrow (V : SQ.Idx → EReal) (n : ℕ) (s : ℕ) (e : Fin 64) : ℝ :=
  if h : n < 8 ∧ s < 4096 then (V (ix3 (⟨n, h.1⟩ : Fin 8) (⟨s, h.2⟩ : Fin 4096) e)).toReal else 0

/-- A real-valued array is the coercion of its real parts. -/
theorem coe_toReal_of_finite {s : Shape} {X : s.Idx → EReal} (h : Attention.Finite X) (i : s.Idx) : X i = ((X i).toReal : EReal) := by
  obtain ⟨r, hr⟩ := h i
  rw [hr]; rfl

/-- A mask bit widened to a word is non-zero exactly when the bit is set. -/
theorem mask_bit : ∀ b : BitVec 1, IntOp.cmpi .ne (b.setWidth 32) 0#32 = b := by decide

variable {Q K V : SQ.Idx → EReal} {Mk : SM.Idx → BitVec 1}

/-- The block's masked score is the real score. -/
theorem score_real (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (r c : Fin 1024) :
    k0_pay9 (F := Ideal) kb qb mb (ix2 r c) = ((xrow Q K Mk n (qo + r.val) (ko + c.val) : ℝ) : EReal) := by
  rw [Pay.score_apply, hm, mask_bit]
  unfold xrow
  rw [dif_pos ⟨hn, by omega, by omega⟩]
  unfold Attention.score
  by_cases hb : Mk (ix3 (⟨n, hn⟩ : Fin 8) (⟨qo + r.val, by omega⟩ : Fin 4096) (⟨ko + c.val, by omega⟩ : Fin 4096)) = 1#1
  · rw [hb, select_one, if_pos rfl]
    have hd : ∀ d : Fin 64, (qb (ix3 (0 : Fin 1) r d) * Ideal.ofBits .f32 0x3E000000#32) * kb (ix3 (0 : Fin 1) c d)
        = (((Q (ix3 (⟨n, hn⟩ : Fin 8) (⟨qo + r.val, by omega⟩ : Fin 4096) d)).toReal * (1 / 8)
            * (K (ix3 (⟨n, hn⟩ : Fin 8) (⟨ko + c.val, by omega⟩ : Fin 4096) d)).toReal : ℝ) : EReal) := fun d => by
      rw [hq, hk, coe_toReal_of_finite hQ, coe_toReal_of_finite hK, Attention.eighth_eq, ← EReal.coe_mul, ← EReal.coe_mul]
      simp only [EReal.toReal_coe]
    simp only [hd]
    rw [coe_sum]
    refine congrArg (fun x : ℝ => (x : EReal)) ?_
    rw [Finset.sum_div]
    exact Finset.sum_congr rfl fun d _ => by ring
  · rw [eq_zero_of_ne_one hb, select_zero, if_neg (by decide)]
    show Attention.fill = _
    rw [Attention.fill_eq]; rfl

/-- The block's value rows are real. -/
theorem vals_real (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (c : Fin 1024) (e : Fin 64) :
    k0_pay8 (F := Ideal) vb (ix2 c e) = ((vrow V n (ko + c.val) e : ℝ) : EReal) := by
  rw [Pay.vals_apply, hv]
  unfold vrow
  rw [dif_pos ⟨hn, by omega⟩]
  exact coe_toReal_of_finite hV _

/-- The new running maximum of row r, over the real scores. -/
theorem new_max (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (mprev : Vec Ideal S1024x1 .f32) (r : Fin 1024) :
    k0_pay10 (F := Ideal) kb qb mb mprev (ix2 r (0 : Fin 1))
      = max (mprev (ix2 r (0 : Fin 1))) ((univ : Finset (Fin 1024)).fold max (⊥ : EReal)
            fun c => ((xrow Q K Mk n (qo + r.val) (ko + c.val) : ℝ) : EReal)) := by
  rw [Pay.max_apply, Attention.neg_inf_eq]
  refine congrArg (max _) (Finset.fold_congr fun c _ => ?_)
  exact score_real kb vb qb mb n qo ko hn hqo hko hQ hK hV hq hk hm hv r c

/-- The new running sum of row r. -/
theorem new_sum (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (mprev lprev : Vec Ideal S1024x1 .f32) (r : Fin 1024) :
    k0_pay1 (F := Ideal) (k0_pay11 kb qb mb mprev) (k0_pay12 kb qb mb mprev) lprev (ix2 r (0 : Fin 1))
      = Ideal.exp (mprev (ix2 r (0 : Fin 1)) - max (mprev (ix2 r (0 : Fin 1))) ((univ : Finset (Fin 1024)).fold max (⊥ : EReal)
            fun c => ((xrow Q K Mk n (qo + r.val) (ko + c.val) : ℝ) : EReal))) * lprev (ix2 r (0 : Fin 1))
        + ∑ c : Fin 1024, Ideal.exp (((xrow Q K Mk n (qo + r.val) (ko + c.val) : ℝ) : EReal)
            - max (mprev (ix2 r (0 : Fin 1))) ((univ : Finset (Fin 1024)).fold max (⊥ : EReal)
            fun c => ((xrow Q K Mk n (qo + r.val) (ko + c.val) : ℝ) : EReal))) := by
  rw [Pay.sum_apply, Pay.factor_apply, new_max kb vb qb mb n qo ko hn hqo hko hQ hK hV hq hk hm hv mprev r]
  refine congrArg (_ + ·) (Finset.sum_congr rfl fun c _ => ?_)
  rw [Pay.weight_apply, new_max kb vb qb mb n qo ko hn hqo hko hQ hK hV hq hk hm hv mprev r, score_real kb vb qb mb n qo ko hn hqo hko hQ hK hV hq hk hm hv r c]

/-- The new weighted sum of row r, value column e. -/
theorem new_acc (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (mprev : Vec Ideal S1024x1 .f32) (aprev : Vec Ideal S1024x64 .f32) (r : Fin 1024) (e : Fin 64) :
    k0_pay2 (F := Ideal) (k0_pay8 vb) (k0_pay11 kb qb mb mprev) (k0_pay12 kb qb mb mprev) aprev (ix2 r e)
      = Ideal.exp (mprev (ix2 r (0 : Fin 1)) - max (mprev (ix2 r (0 : Fin 1))) ((univ : Finset (Fin 1024)).fold max (⊥ : EReal)
            fun c => ((xrow Q K Mk n (qo + r.val) (ko + c.val) : ℝ) : EReal))) * aprev (ix2 r e)
        + ∑ c : Fin 1024, Ideal.exp (((xrow Q K Mk n (qo + r.val) (ko + c.val) : ℝ) : EReal)
            - max (mprev (ix2 r (0 : Fin 1))) ((univ : Finset (Fin 1024)).fold max (⊥ : EReal)
            fun c => ((xrow Q K Mk n (qo + r.val) (ko + c.val) : ℝ) : EReal)))
              * ((vrow V n (ko + c.val) e : ℝ) : EReal) := by
  rw [Pay.acc_apply, Pay.factor_apply, new_max kb vb qb mb n qo ko hn hqo hko hQ hK hV hq hk hm hv mprev r]
  refine congrArg (_ + ·) (Finset.sum_congr rfl fun c _ => ?_)
  rw [Pay.weight_apply, new_max kb vb qb mb n qo ko hn hqo hko hQ hK hV hq hk hm hv mprev r, score_real kb vb qb mb n qo ko hn hqo hko hQ hK hV hq hk hm hv r c, vals_real kb vb qb mb n qo ko hn hqo hko hQ hK hV hq hk hm hv c e]

/-- A later block: the row's running state after it, from the state before it. -/
theorem row_step (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (mprev lprev : Vec Ideal S1024x1 .f32) (aprev : Vec Ideal S1024x64 .f32) (r : Fin 1024)
    (h : RowInv (range ko) (xrow Q K Mk n (qo + r.val)) (vrow V n) (mprev (ix2 r (0 : Fin 1))) (lprev (ix2 r (0 : Fin 1)))
      (fun e => aprev (ix2 r e))) :
    RowInv (range (ko + 1024)) (xrow Q K Mk n (qo + r.val)) (vrow V n)
      (k0_pay3 (F := Ideal) (k0_pay10 kb qb mb mprev) (ix2 r (0 : Fin 1)))
      (k0_pay1 (F := Ideal) (k0_pay11 kb qb mb mprev) (k0_pay12 kb qb mb mprev) lprev (ix2 r (0 : Fin 1)))
      (fun e => k0_pay2 (F := Ideal) (k0_pay8 vb) (k0_pay11 kb qb mb mprev) (k0_pay12 kb qb mb mprev) aprev (ix2 r e)) := by
  rw [Pay.keep_apply, new_max kb vb qb mb n qo ko hn hqo hko hQ hK hV hq hk hm hv mprev r, new_sum kb vb qb mb n qo ko hn hqo hko hQ hK hV hq hk hm hv mprev lprev r]
  simp only [new_acc kb vb qb mb n qo ko hn hqo hko hQ hK hV hq hk hm hv mprev aprev r]
  exact h.step

/-- A first block (key-row offset 0): the row's running state after it, from the reset values. -/
theorem row_first (kb vb qb : Vec Ideal S1x1024x64 .f32) (mb : Vec Ideal S1x1024x1024 .i32)
    (n qo ko : ℕ) (hn : n < 8) (hqo : qo + 1024 ≤ 4096) (hko : ko + 1024 ≤ 4096)
    (hQ : Attention.Finite Q) (hK : Attention.Finite K) (hV : Attention.Finite V)
    (hq : ∀ (r : Fin 1024) (d : Fin 64), qb (ix3 (0 : Fin 1) r d) = Q (ix3 (⟨n, hn⟩ : Fin 8) (⟨qo + r.val, by omega⟩ : Fin 4096) d))
    (hk : ∀ (c : Fin 1024) (d : Fin 64), kb (ix3 (0 : Fin 1) c d) = K (ix3 (⟨n, hn⟩ : Fin 8) (⟨ko + c.val, by omega⟩ : Fin 4096) d))
    (hm : ∀ (r c : Fin 1024), mb (ix3 (0 : Fin 1) r c)
      = (Mk (ix3 (⟨n, hn⟩ : Fin 8) (⟨qo + r.val, by omega⟩ : Fin 4096) (⟨ko + c.val, by omega⟩ : Fin 4096))).setWidth 32)
    (hv : ∀ (c : Fin 1024) (e : Fin 64), vb (ix3 (0 : Fin 1) c e) = V (ix3 (⟨n, hn⟩ : Fin 8) (⟨ko + c.val, by omega⟩ : Fin 4096) e))
    (r : Fin 1024) (hko0 : ko = 0) :
    RowInv (range (ko + 1024)) (xrow Q K Mk n (qo + r.val)) (vrow V n)
      (k0_pay3 (F := Ideal) (k0_pay10 kb qb mb (k0_pay5 (F := Ideal))) (ix2 r (0 : Fin 1)))
      (k0_pay1 (F := Ideal) (k0_pay11 kb qb mb (k0_pay5 (F := Ideal))) (k0_pay12 kb qb mb (k0_pay5 (F := Ideal))) (k0_pay6 (F := Ideal)) (ix2 r (0 : Fin 1)))
      (fun e => k0_pay2 (F := Ideal) (k0_pay8 vb) (k0_pay11 kb qb mb (k0_pay5 (F := Ideal))) (k0_pay12 kb qb mb (k0_pay5 (F := Ideal))) (k0_pay7 (F := Ideal)) (ix2 r e)) := by
  rw [Pay.keep_apply, new_max kb vb qb mb n qo ko hn hqo hko hQ hK hV hq hk hm hv (k0_pay5 (F := Ideal)) r, new_sum kb vb qb mb n qo ko hn hqo hko hQ hK hV hq hk hm hv (k0_pay5 (F := Ideal)) (k0_pay6 (F := Ideal)) r]
  simp only [new_acc kb vb qb mb n qo ko hn hqo hko hQ hK hV hq hk hm hv (k0_pay5 (F := Ideal)) (k0_pay7 (F := Ideal)) r]
  simp only [Pay.reset_max_apply, Pay.reset_sum_apply, Pay.reset_acc_apply, Attention.neg_inf_eq, Ideal.ofBits_zero_f32]
  subst hko0
  exact RowInv.first _ _

end Cert.KernelIdeal.RowBlock

end
-- ==== Proof.Blocks.lean ====
/-
  The point's blocks, read off the argument arrays.

  Point t of the grid is batch t / 16, query block (t / 4) mod 4, key block t mod 4. Its query block is rows
  1024 * ((t / 4) mod 4) + r of the batch's queries; the key and value windows hold the batch's whole [4096, 64] arrays, of which
  the body reads the 1024 rows from 1024 * (t mod 4); its mask block is the [1024, 1024] tile at those query and key rows
  of the mask widened to words (the one operation before the kernel's region); and its output block is the query block's rows
  of the result.
-/
import proofs.«163673_j90263032693333_2_alg».proof.Proof.Gen.KernelIdeal.Value
import proofs.«163673_j90263032693333_2_alg».proof.Proof.Pieces
import Idealize.ShloMosaic.Lib.StableHlo.Run
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- The printed index maps and the body's row offset, decided over the grid. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val / 4 % 4 ∧ win0_3.index t (2 : Fin 3) = t.val % 4
    ∧ win0_4.index t (0 : Fin 3) = t.val / 16 ∧ win0_4.index t (1 : Fin 3) = t.val / 4 % 4 ∧ win0_4.index t (2 : Fin 3) = 0
    ∧ k0_off1 (grid0.coords t) (0 : Fin 3) = 0 ∧ k0_off1 (grid0.coords t) (1 : Fin 3) = 1024 * (t.val % 4)
    ∧ k0_off1 (grid0.coords t) (2 : Fin 3) = 0 :=
  (by decide +kernel : ∀ t : Fin grid0.N, _)

/-- The query block. -/
theorem q_block (c : Dev nD) (t : Fin cfg0.N) (hn : t.val / 16 < 8) (r : Fin 1024) (d : Fin 64) :
    (iblk m c 0 t : Vec F S1x1024x64 .f32) (ix3 (0 : Fin 1) r d)
      = m ((c : Thread nD τ).loc main_arg0) (ix3 (⟨t.val / 16, hn⟩ : Fin 8) (⟨1024 * (t.val / 4 % 4) + r.val, by omega⟩ : Fin 4096) d) := by
  obtain ⟨e0, e1, e2, -⟩ := idx_facts t
  rw [← V_main_arg0 m c]
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * (t.val / 4 % 4) + r.val; omega
  | ⟨2, _⟩ => show win0_0.index t (2 : Fin 3) * 64 + 1 * d.val = d.val; omega

/-- The key rows the body reads: 1024 rows of the batch's keys from the key block's offset. -/
theorem k_rows (c : Dev nD) (t : Fin cfg0.N) (hn : t.val / 16 < 8) (cc : Fin 1024) (d : Fin 64) :
    Pieces.kvRows (grid0.coords t) (iblk m c 1 t) (ix3 (0 : Fin 1) cc d)
      = m ((c : Thread nD τ).loc main_arg1) (ix3 (⟨t.val / 16, hn⟩ : Fin 8) (⟨1024 * (t.val % 4) + cc.val, by omega⟩ : Fin 4096) d) := by
  obtain ⟨-, -, -, a0, a1, a2, b0, b1, b2, -, -, -, -, -, -, k0, k1, k2⟩ := idx_facts t
  rw [← V_main_arg1 m c]
  show V m c main_arg1 (((cfg0.win 1).blk t).view.emb
    ((Rect.unit (s := S1x4096x64) (k0_off1 (grid0.coords t)) S1x1024x64.size (k0_off1_inb (grid0.coords t))).idx (ix3 (0 : Fin 1) cc d))) = _
  refine congrArg (V m c main_arg1) (funext fun a => Fin.ext ?_)
  match a with
  | ⟨0, _⟩ => show win0_1.index t (0 : Fin 3) * 1 + 1 * (k0_off1 (grid0.coords t) (0 : Fin 3) + 1 * 0) = t.val / 16; omega
  | ⟨1, _⟩ => show win0_1.index t (1 : Fin 3) * 4096 + 1 * (k0_off1 (grid0.coords t) (1 : Fin 3) + 1 * cc.val) = 1024 * (t.val % 4) + cc.val; omega
  | ⟨2, _⟩ => show win0_1.index t (2 : Fin 3) * 64 + 1 * (k0_off1 (grid0.coords t) (2 : Fin 3) + 1 * d.val) = d.val; omega

/-- The value rows the body reads: 1024 rows of the batch's values from the key block's offset. -/
theorem v_rows (c : Dev nD) (t : Fin cfg0.N) (hn : t.val / 16 < 8) (cc : Fin 1024) (d : Fin 64) :
    Pieces.kvRows (grid0.coords t) (iblk m c 2 t) (ix3 (0 : Fin 1) cc d)
      = m ((c : Thread nD τ).loc main_arg2) (ix3 (⟨t.val / 16, hn⟩ : Fin 8) (⟨1024 * (t.val % 4) + cc.val, by omega⟩ : Fin 4096) d) := by
  obtain ⟨-, -, -, a0, a1, a2, b0, b1, b2, -, -, -, -, -, -, k0, k1, k2⟩ := idx_facts t
  rw [← V_main_arg2 m c]
  show V m c main_arg2 (((cfg0.win 2).blk t).view.emb
    ((Rect.unit (s := S1x4096x64) (k0_off1 (grid0.coords t)) S1x1024x64.size (k0_off1_inb (grid0.coords t))).idx (ix3 (0 : Fin 1) cc d))) = _
  refine congrArg (V m c main_arg2) (funext fun a => Fin.ext ?_)
  match a with
  | ⟨0, _⟩ => show win0_2.index t (0 : Fin 3) * 1 + 1 * (k0_off1 (grid0.coords t) (0 : Fin 3) + 1 * 0) = t.val / 16; omega
  | ⟨1, _⟩ => show win0_2.index t (1 : Fin 3) * 4096 + 1 * (k0_off1 (grid0.coords t) (1 : Fin 3) + 1 * cc.val) = 1024 * (t.val % 4) + cc.val; omega
  | ⟨2, _⟩ => show win0_2.index t (2 : Fin 3) * 64 + 1 * (k0_off1 (grid0.coords t) (2 : Fin 3) + 1 * d.val) = d.val; omega

/-- The mask as the kernel's region finds it: each bit widened to a word by the one operation before the region. -/
theorem V_mask (c : Dev nD) :
    (V m c main_v0 : S8x4096x4096.Idx → BitVec 32) = extui 32 (m ((c : Thread nD τ).loc main_arg3)) Facts₀.natLt_1_32 := by
  dsimp only [Gen.V, Gen.hostOps0]; after_results

/-- The mask block: the [1024, 1024] tile at the point's query rows and key rows, as words. -/
theorem mask_block (c : Dev nD) (t : Fin cfg0.N) (hn : t.val / 16 < 8) (r cc : Fin 1024) :
    (iblk m c 3 t : Vec F S1x1024x1024 .i32) (ix3 (0 : Fin 1) r cc)
      = (m ((c : Thread nD τ).loc main_arg3) (ix3 (⟨t.val / 16, hn⟩ : Fin 8) (⟨1024 * (t.val / 4 % 4) + r.val, by omega⟩ : Fin 4096)
          (⟨1024 * (t.val % 4) + cc.val, by omega⟩ : Fin 4096))).setWidth 32 := by
  obtain ⟨-, -, -, -, -, -, -, -, -, m0, m1, m2, -⟩ := idx_facts t
  show V m c main_v0 (((cfg0.win 3).blk t).view.emb (ix3 (0 : Fin 1) r cc)) = _
  rw [V_mask m c, extui_apply]
  refine congrArg (fun i => (m ((c : Thread nD τ).loc main_arg3) i).setWidth 32) (funext fun a => Fin.ext ?_)
  match a with
  | ⟨0, _⟩ => show win0_3.index t (0 : Fin 3) * 1 + 1 * 0 = t.val / 16; omega
  | ⟨1, _⟩ => show win0_3.index t (1 : Fin 3) * 1024 + 1 * r.val = 1024 * (t.val / 4 % 4) + r.val; omega
  | ⟨2, _⟩ => show win0_3.index t (2 : Fin 3) * 1024 + 1 * cc.val = 1024 * (t.val % 4) + cc.val; omega

/-- The output block's index (0, r, e) is the result array's index (batch, query row, e). -/
theorem out_index (t : Fin cfg0.N) (hn : t.val / 16 < 8) (r : Fin 1024) (e : Fin 64) :
    (((cfg0.win 4).blk t).view.emb (ix3 (0 : Fin 1) r e) : S8x4096x64.Idx)
      = ix3 (⟨t.val / 16, hn⟩ : Fin 8) (⟨1024 * (t.val / 4 % 4) + r.val, by omega⟩ : Fin 4096) e := by
  obtain ⟨-, -, -, -, -, -, -, -, -, -, -, -, o0, o1, o2, -⟩ := idx_facts t
  funext a
  apply Fin.ext
  match a with
  | ⟨0, _⟩ => show win0_4.index t (0 : Fin 3) * 1 + 1 * 0 = t.val / 16; omega
  | ⟨1, _⟩ => show win0_4.index t (1 : Fin 3) * 1024 + 1 * r.val = 1024 * (t.val / 4 % 4) + r.val; omega
  | ⟨2, _⟩ => show win0_4.index t (2 : Fin 3) * 64 + 1 * e.val = e.val; omega

end Cert.KernelIdeal.Blocks

end
-- ==== Proof.Invariant.lean ====
/-
  The carried buffers after every grid point, row by row.

  The grid runs over batches, query blocks of 1024 rows and key blocks of 1024 rows, the key block fastest: point k is
  batch k / 16, query block (k / 4) mod 4, key block k mod 4. After point k, row r of the three carried buffers is the
  running state (maximum, sum, weighted sums) of query row 1024 * ((k / 4) mod 4) + r of that batch over the first
  1024 * (k mod 4) + 1024 key rows. By induction on k: a point with k mod 4 = 0 resets the buffers and takes the first
  key block; any other point takes the next key block over what the point before left.
-/
import proofs.«163673_j90263032693333_2_alg».proof.Proof.Gen.KernelIdeal.Value
import proofs.«163673_j90263032693333_2_alg».proof.Proof.Pieces
import proofs.«163673_j90263032693333_2_alg».proof.Proof.RowBlock
import proofs.«163673_j90263032693333_2_alg».proof.Proof.Blocks

set_option maxRecDepth 16384

noncomputable section

namespace Cert.KernelIdeal.Inv

open Cert.KernelIdeal Cert.KernelIdeal.Gen Idealize.ShloMosaic Idealize.ShloMosaic.TcCoe Idealize.SL.Sem Idealize.ShloMosaic.ValueIdx
open Attention Attention.Row Finset Cert.KernelIdeal.RowBlock

variable (m : (ℓ : Loc nD τ sig) → Buf (Elt Ideal) ℓ) (c : Dev nD)

/-- The four argument arrays as launched: queries, keys, values, mask. -/
abbrev aQ : SQ.Idx → EReal := m ((c : Thread nD τ).loc main_arg0)
abbrev aK : SQ.Idx → EReal := m ((c : Thread nD τ).loc main_arg1)
abbrev aV : SQ.Idx → EReal := m ((c : Thread nD τ).loc main_arg2)
abbrev aM : SM.Idx → BitVec 1 := m ((c : Thread nD τ).loc main_arg3)

/-- After point k, every row of the carried buffers is the running state over the key rows seen so far. -/
def RowsOk (k : ℕ) (hk : k < cfg0.N) : Prop :=
  ∀ r : Fin 1024, RowInv (range (1024 * (k % 4) + 1024))
    (xrow (aQ m c) (aK m c) (aM m c) (k / 16) (1024 * (k / 4 % 4) + r.val)) (vrow (aV m c) (k / 16))
    ((outsAt0 m c k hk).2.1 (ix2 r (0 : Fin 1))) ((outsAt0 m c k hk).2.2.1 (ix2 r (0 : Fin 1)))
    (fun e => (outsAt0 m c k hk).2.2.2 (ix2 r e))

variable (hQ : Attention.Finite (aQ m c)) (hK : Attention.Finite (aK m c)) (hV : Attention.Finite (aV m c))

include hQ hK hV

/-- A point that starts a query block (k mod 4 = 0): reset, then the first key block. -/
theorem rows_A (t : Fin cfg0.N) (h0 : t.val % 4 = 0) (h1 : ¬t.val % 4 = 3) : RowsOk m c t.val t.isLt := by
  have hN : cfg0.N = 128 := N_0
  have hlt := t.isLt
  have hn : t.val / 16 < 8 := by omega
  intro r
  rw [outsAt0_A m c t h0 h1]
  dsimp only
  rw [Pieces.sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    Pieces.sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)),
    Pieces.sA2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))]
  exact row_first (Pieces.kvRows (grid0.coords t) (iblk m c 1 t)) (Pieces.kvRows (grid0.coords t) (iblk m c 2 t)) (iblk m c 0 t) (iblk m c 3 t)
      (t.val / 16) (1024 * (t.val / 4 % 4)) (1024 * (t.val % 4)) hn (by omega) (by omega) hQ hK hV
      (fun r d => Blocks.q_block m c t hn r d) (fun cc d => Blocks.k_rows m c t hn cc d) (fun r cc => Blocks.mask_block m c t hn r cc)
      (fun cc e => Blocks.v_rows m c t hn cc e)
      r (by omega)

/-- A middle point (k mod 4 = 1 or 2): the next key block over what the point before left. -/
theorem rows_B (t : Fin cfg0.N) (h0 : ¬t.val % 4 = 0) (h1 : ¬t.val % 4 = 3)
    (ih : RowsOk m c (t.val - 1) (Nat.lt_of_le_of_lt (Nat.sub_le _ _) t.isLt)) : RowsOk m c t.val t.isLt := by
  have hN : cfg0.N = 128 := N_0
  have hlt := t.isLt
  have hn : t.val / 16 < 8 := by omega
  have e1 : (t.val - 1) / 16 = t.val / 16 := by omega
  have e2 : (t.val - 1) / 4 % 4 = t.val / 4 % 4 := by omega
  have e3 : 1024 * ((t.val - 1) % 4) + 1024 = 1024 * (t.val % 4) := by omega
  intro r
  have ihr := ih r
  rw [e1, e2, e3] at ihr
  rw [outsAt0_B m c t h0 h1]
  dsimp only
  rw [Pieces.sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    Pieces.sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)),
    Pieces.sB2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))]
  exact row_step (Pieces.kvRows (grid0.coords t) (iblk m c 1 t)) (Pieces.kvRows (grid0.coords t) (iblk m c 2 t)) (iblk m c 0 t) (iblk m c 3 t)
      (t.val / 16) (1024 * (t.val / 4 % 4)) (1024 * (t.val % 4)) hn (by omega) (by omega) hQ hK hV
      (fun r d => Blocks.q_block m c t hn r d) (fun cc d => Blocks.k_rows m c t hn cc d) (fun r cc => Blocks.mask_block m c t hn r cc)
      (fun cc e => Blocks.v_rows m c t hn cc e)
      _ _ _ r ihr

/-- The last point of a query block (k mod 4 = 3): the last key block over what the point before left. -/
theorem rows_C (t : Fin cfg0.N) (h0 : ¬t.val % 4 = 0) (h1 : t.val % 4 = 3)
    (ih : RowsOk m c (t.val - 1) (Nat.lt_of_le_of_lt (Nat.sub_le _ _) t.isLt)) : RowsOk m c t.val t.isLt := by
  have hN : cfg0.N = 128 := N_0
  have hlt := t.isLt
  have hn : t.val / 16 < 8 := by omega
  have e1 : (t.val - 1) / 16 = t.val / 16 := by omega
  have e2 : (t.val - 1) / 4 % 4 = t.val / 4 % 4 := by omega
  have e3 : 1024 * ((t.val - 1) % 4) + 1024 = 1024 * (t.val % 4) := by omega
  intro r
  have ihr := ih r
  rw [e1, e2, e3] at ihr
  rw [outsAt0_C m c t h0 h1]
  dsimp only
  rw [Pieces.sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
  exact row_step (Pieces.kvRows (grid0.coords t) (iblk m c 1 t)) (Pieces.kvRows (grid0.coords t) (iblk m c 2 t)) (iblk m c 0 t) (iblk m c 3 t)
      (t.val / 16) (1024 * (t.val / 4 % 4)) (1024 * (t.val % 4)) hn (by omega) (by omega) hQ hK hV
      (fun r d => Blocks.q_block m c t hn r d) (fun cc d => Blocks.k_rows m c t hn cc d) (fun r cc => Blocks.mask_block m c t hn r cc)
      (fun cc e => Blocks.v_rows m c t hn cc e)
      _ _ _ r ihr

/-- The carried buffers after every point. -/
theorem rows_ok : ∀ (k : ℕ) (hk : k < cfg0.N), RowsOk m c k hk
  | 0, hk => rows_A m c hQ hK hV ⟨0, hk⟩ rfl (by show ¬(0 : ℕ) % 4 = 3; decide)
  | k + 1, hk => by
    have ih := rows_ok k (Nat.lt_of_succ_lt hk)
    by_cases h0 : (k + 1) % 4 = 0
    · exact rows_A m c hQ hK hV ⟨k + 1, hk⟩ h0 (by show ¬(k + 1) % 4 = 3; omega)
    · by_cases h1 : (k + 1) % 4 = 3
      · exact rows_C m c hQ hK hV ⟨k + 1, hk⟩ h0 h1 ih
      · exact rows_B m c hQ hK hV ⟨k + 1, hk⟩ h0 h1 ih

end Cert.KernelIdeal.Inv

end
-- ==== Proof.KernelValue.lean ====
/-
  The kernel's result array.

  The output block is stored only at the last key block of a query block (k mod 4 = 3), and only those points write
  back. What such a point stores at (0, r, e) is the weighted sum of row r, column e, over the row's sum, both taken over
  all 4096 key rows by then: the softmax-weighted average, i.e. the specification at batch k / 16, query row
  1024 * ((k / 4) mod 4) + r, column e. The blocks of those 32 points tile the [8, 4096, 64] array: index (n, q, e) lies in
  the block of point 16 n + 4 (q / 1024) + 3. So the array after the run is the specification.
-/
import proofs.«163673_j90263032693333_2_alg».proof.Proof.Invariant

set_option maxRecDepth 16384

noncomputable section

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)
open Attention Attention.Row Finset Cert.KernelIdeal.RowBlock Cert.KernelIdeal.Inv

variable (m : (ℓ : Loc nD τ sig) → Buf (Elt Ideal) ℓ) (ρ : Dev nD → PrngReg)

/-- The specification on core c: the attention output of the argument arrays as launched. -/
abbrev result (c : Dev nD) : SQ.Idx → EReal := Attention.out (aQ m c) (aK m c) (aV m c) (aM m c)

/-- What the last point of a query block stores in the output block, at (0, r, e). -/
theorem final_row (c : Dev nD) (hQ : Attention.Finite (aQ m c)) (hK : Attention.Finite (aK m c)) (hV : Attention.Finite (aV m c))
    (t : Fin cfg0.N) (h0 : ¬t.val % 4 = 0) (h1 : t.val % 4 = 3) (hn : t.val / 16 < 8) (r : Fin 1024) (e : Fin 64) :
    (outsAt0 m c t.val t.isLt).1 (ix3 (0 : Fin 1) r e)
      = result m c (ix3 (⟨t.val / 16, hn⟩ : Fin 8) (⟨1024 * (t.val / 4 % 4) + r.val, by omega⟩ : Fin 4096) e) := by
  have hN : cfg0.N = 128 := N_0
  have hlt := t.isLt
  have hqr : 1024 * (t.val / 4 % 4) + r.val < 4096 := by omega
  have hrow := rows_ok m c hQ hK hV t.val t.isLt r
  have e4 : 1024 * (t.val % 4) + 1024 = 4096 := by omega
  rw [e4] at hrow
  have hfin := hrow.final e
  rw [outsAt0_C m c t h0 h1] at hfin ⊢
  dsimp only at hfin ⊢
  rw [Pieces.sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
    Pieces.sC2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)] at hfin
  rw [Pieces.oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1), Pay.out_apply, hfin]
  have hx : ∀ s : Fin 4096, xrow (aQ m c) (aK m c) (aM m c) (t.val / 16) (1024 * (t.val / 4 % 4) + r.val) s.val
      = Attention.score (aQ m c) (aK m c) (aM m c) ⟨t.val / 16, hn⟩ ⟨1024 * (t.val / 4 % 4) + r.val, hqr⟩ s := fun s => by
    unfold xrow; rw [dif_pos ⟨hn, hqr, s.isLt⟩]
  have hv : ∀ s : Fin 4096, vrow (aV m c) (t.val / 16) s.val e
      = (aV m c (ix3 (⟨t.val / 16, hn⟩ : Fin 8) s e)).toReal := fun s => by
    unfold vrow; rw [dif_pos ⟨hn, s.isLt⟩]
  simp only [hx, hv]
  rfl

/-- An index of the array is in point t's output block iff each coordinate is in the block's range on its axis. -/
theorem mem_blk (t : Fin cfg0.N) (i : S8x4096x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v1).slice (win0_4.rect t)).set ↔ _
  rw [View.set_slice_whole, Rect.mem_set_unit]
  exact Iff.rfl

/-- What a writing point writes back is its block of the specification. -/
theorem flushed_eq (c : Dev nD) (hQ : Attention.Finite (aQ m c)) (hK : Attention.Finite (aK m c)) (hV : Attention.Finite (aV m c))
    (t : Fin cfg0.N) (hf : (cfg0.win 4).flush t = true) :
    (dats m 0 c).flushed 4 t = ((cfg0.win 4).blk t).view.read (Elt Ideal) (result m c) := by
  have hN : cfg0.N = 128 := N_0
  have hlt := t.isLt
  have h1 : t.val % 4 = 3 := (flush0_4 t).mp hf
  have h0 : ¬t.val % 4 = 0 := by omega
  have hn : t.val / 16 < 8 := by omega
  rw [Value.flushed4]
  funext y
  obtain ⟨u, r, e, rfl⟩ : ∃ (u : Fin 1) (r : Fin 1024) (e : Fin 64), y = ix3 u r e := ⟨y 0, y 1, y 2, eq_ix3 y⟩
  obtain rfl : u = 0 := Subsingleton.elim _ _
  show (outsAt0 m c t.val t.isLt).1 (ix3 (0 : Fin 1) r e) = result m c (((cfg0.win 4).blk t).view.emb (ix3 (0 : Fin 1) r e))
  rw [Blocks.out_index t hn r e]
  exact final_row m c hQ hK hV t h0 h1 hn r e

/-- Every index of the array is in the block of a writing point. -/
theorem cover (i : S8x4096x64.Idx) : ∃ t : Fin cfg0.N, (cfg0.win 4).flush t = true ∧ i ∈ ((cfg0.win 4).blk t).view.set := by
  have hN : cfg0.N = 128 := N_0
  have b0 : (i 0).val < 8 := (i 0).isLt
  have b1 : (i 1).val < 4096 := (i 1).isLt
  have b2 : (i 2).val < 64 := (i 2).isLt
  have hb : 16 * (i 0).val + 4 * ((i 1).val / 1024) + 3 < cfg0.N := by omega
  refine ⟨⟨16 * (i 0).val + 4 * ((i 1).val / 1024) + 3, hb⟩, (flush0_4 _).mpr (by show (16 * (i 0).val + 4 * ((i 1).val / 1024) + 3) % 4 = 3; omega), ?_⟩
  rw [mem_blk]
  obtain ⟨-, -, -, -, -, -, -, -, -, -, -, -, f0, f1, f2, -⟩ := Blocks.idx_facts ⟨16 * (i 0).val + 4 * ((i 1).val / 1024) + 3, hb⟩
  have g0 : (16 * (i 0).val + 4 * ((i 1).val / 1024) + 3) / 16 = (i 0).val := by omega
  have g1 : (16 * (i 0).val + 4 * ((i 1).val / 1024) + 3) / 4 % 4 = (i 1).val / 1024 := by omega
  simp only [] at f0 f1 f2
  rw [g0] at f0
  rw [g1] at f1
  intro a
  match a with
  | ⟨0, _⟩ => show win0_4.index _ (0 : Fin 3) * 1 ≤ (i 0).val ∧ (i 0).val < win0_4.index _ (0 : Fin 3) * 1 + 1; rw [f0]; omega
  | ⟨1, _⟩ => show win0_4.index _ (1 : Fin 3) * 1024 ≤ (i 1).val ∧ (i 1).val < win0_4.index _ (1 : Fin 3) * 1024 + 1024; rw [f1]; omega
  | ⟨2, _⟩ => show win0_4.index _ (2 : Fin 3) * 64 ≤ (i 2).val ∧ (i 2).val < win0_4.index _ (2 : Fin 3) * 64 + 64; rw [f2]; omega

/-- The array after the run is the specification. -/
theorem final (c : Dev nD) (hQ : Attention.Finite (aQ m c)) (hK : Attention.Finite (aK m c)) (hV : Attention.Finite (aV m c)) :
    (dats m 0 c).arrAt 4 cfg0.N = result m c :=
  (dats m 0 c).arrAt_eq_of_cover 4 (result m c) (fun t hf => flushed_eq m c hQ hK hV t hf) cover

/-- The run, read: the result array at the specification, the arguments unchanged. -/
theorem run (hfin : ∀ c : Dev nD, Attention.Finite (aQ m c) ∧ Attention.Finite (aK m c) ∧ Attention.Finite (aV m c)) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hfin c).1 (hfin c).2.1 (hfin c).2.2), (h c).2⟩)
    (Value.run_blocks m ρ)

end Cert.KernelIdeal.AttnValue

end
-- ==== Proof.lean ====
/- Masked scaled dot-product attention: a kernel that accumulates the softmax-weighted average of the value rows
   block by block, against the plain formulation (scores, row-wise softmax, product with the values).

   Both programs compute, for batch n, query row q and value column e,
       (sum_s exp(x s) * V[n, s, e]) / (sum_s exp(x s)),
   where x s is the dot product of query row q and key row s over the 64 features, divided by 8, where the mask bit
   (n, q, s) is set, and the fill value -1e9 where it is not. The reference shifts every score of a row by the row's
   maximum before exponentiating and normalises the weights before multiplying by the values; the kernel takes the 4096
   key rows in four blocks of 1024, keeping per query row a running maximum, a running sum of shifted exponentials and
   running weighted sums, rescaling the latter two by exp(old maximum - new maximum) at each block, and divides once at
   the end. Over the reals a common shift cancels in the quotient, and the rescaling re-expresses the sums accumulated so far
   under the new shift; on finite inputs every quantity involved is a real number (the running maximum starts at
   -infinity, where the rescaling factor exp(-infinity) is 0 and multiplies the zero initial sums), so the two results
   agree as extended reals. The scale 1/8 is the kernel's literal 0.125 and the reference's 1 / sqrt 64.

   The modules: Spec (the common value), OnlineSoftmax and RowStep (the algebra, over the reals and over the extended
   reals), Pieces, Payloads, Blocks (what the kernel body stores, its arithmetic read at an index, its blocks read off
   the argument arrays), RowBlock and Invariant (the carried buffers after every grid point), KernelValue (the kernel's
   result array), RefValue (the reference's result), FiniteInputs (the precondition read as finiteness) and Claims (the
   five claims), assembled here behind the witnesses of the programs' stated facts. -/
import proofs.«163673_j90263032693333_2_alg».proof.Defs
import proofs.«163673_j90263032693333_2_alg».proof.Proof.Gen.Kernel
import proofs.«163673_j90263032693333_2_alg».proof.Proof.Gen.Kernel.Skeleton
import proofs.«163673_j90263032693333_2_alg».proof.Proof.Gen.Kernel.Launch
import proofs.«163673_j90263032693333_2_alg».proof.Proof.Gen.Kernel.Points
import proofs.«163673_j90263032693333_2_alg».proof.Proof.Gen.Kernel.Frame
import proofs.«163673_j90263032693333_2_alg».proof.Proof.Gen.KernelIdeal
import proofs.«163673_j90263032693333_2_alg».proof.Proof.Gen.KernelIdeal.Skeleton
import proofs.«163673_j90263032693333_2_alg».proof.Proof.Gen.KernelIdeal.Launch
import proofs.«163673_j90263032693333_2_alg».proof.Proof.Gen.KernelIdeal.Points
import proofs.«163673_j90263032693333_2_alg».proof.Proof.Gen.KernelIdeal.Frame
import proofs.«163673_j90263032693333_2_alg».proof.Proof.Gen.ReferenceIdeal
import proofs.«163673_j90263032693333_2_alg».proof.Proof.Gen.Pre_finite_inputs
import proofs.«163673_j90263032693333_2_alg».proof.Proof.Gen.KernelIdeal.Value
import proofs.«163673_j90263032693333_2_alg».proof.Proof.Gen.ReferenceIdeal.Run
import proofs.«163673_j90263032693333_2_alg».proof.Proof.Gen.ReferenceIdeal.Read
import proofs.«163673_j90263032693333_2_alg».proof.Proof.Claims
import proofs.«163673_j90263032693333_2_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  AttnClaims.frame_k, AttnClaims.frame_ki, AttnClaims.frame_ri, AttnClaims.preserves,
  AttnClaims.algebraic_of fun m ρ hfin => Cert.KernelIdeal.AttnValue.run m ρ hfin⟩

end Cert.Proof

end
